-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S8x512x512 : Shape := ⟨3, ![8, 512, 512]⟩
abbrev S8x512 : Shape := ⟨2, ![8, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16384x512 .f32) (main_arg1 : FVec F S8x512x512 .f32) (main_arg2 : FVec F S8x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16384x512 : Shape := ⟨2, ![16384, 512]⟩
abbrev S8x512x512 : Shape := ⟨3, ![8, 512, 512]⟩
abbrev S8x512 : Shape := ⟨2, ![8, 512]⟩
abbrev S_ : Shape := ⟨0, ![]⟩
abbrev S16384x16x512 : Shape := ⟨3, ![16384, 16, 512]⟩
abbrev S512x512 : Shape := ⟨2, ![512, 512]⟩
abbrev S512x16x512 : Shape := ⟨3, ![512, 16, 512]⟩
abbrev S512 : Shape := ⟨1, ![512]⟩
abbrev S512x1 : Shape := ⟨2, ![512, 1]⟩
abbrev S1x512x512 : Shape := ⟨3, ![1, 512, 512]⟩
abbrev S1x512 : Shape := ⟨2, ![1, 512]⟩
abbrev S512x1x512 : Shape := ⟨3, ![512, 1, 512]⟩

abbrev nBuf : Space → Nat
  | .hbm => 12
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S8x512x512, .f32⟩
  | .hbm, ⟨2, _⟩ => ⟨S8x512, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x512x512, .bf16⟩
  | .hbm, ⟨8, _⟩ => ⟨S_, .f32⟩
  | .hbm, ⟨9, _⟩ => ⟨S8x512, .f32⟩
  | .hbm, ⟨10, _⟩ => ⟨S8x512, .f32⟩
  | .hbm, ⟨11, _⟩ => ⟨S16384x16x512, .f32⟩
  | .local _ .vmem, ⟨0, _⟩ => ⟨S512x512, .f32⟩
  | .local _ .vmem, ⟨1, _⟩ => ⟨S512x512, .f32⟩
  | .local _ .vmem, ⟨2, _⟩ => ⟨S8x512x512, .bf16⟩
  | .local _ .vmem, ⟨3, _⟩ => ⟨S8x512, .f32⟩
  | .local _ .vmem, ⟨4, _⟩ => ⟨S512x16x512, .f32⟩
  | .local _ .vmem, ⟨5, _⟩ => ⟨S512x16x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x512x512_S8x512x512_0_2_1 : S8x512x512.Transposes [0, 2, 1] S8x512x512
  bcast_S_S8x512x512 : S_.BroadcastsInDim S8x512x512 (![] : Fin 0 → Fin S8x512x512.rank)
  bitsLt_bf16_f32 : FTy.bits .bf16 < FTy.bits .f32
  bcast_S_S8x512 : S_.BroadcastsInDim S8x512 (![] : Fin 0 → Fin S8x512.rank)
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  shapeCasts_S512x512_S512x1x512 : S512x512.ShapeCasts S512x1x512
  shapeCasts_S512x1x512_S512x1x512 : S512x1x512.ShapeCasts S512x1x512
  broadcasts_S512x1x512_S512x16x512 : S512x1x512.Broadcasts S512x16x512
  inb_S512x16x512_S512x16x512_0_0_0 : ∀ a, (![0, 0, 0] : Fin 3 → Nat) a + S512x16x512.size a ≤ S512x16x512.size a
  h_S512x16x512 : 0 < S512x16x512.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S8x512x512.size a
  hwx0_1 : ∀ i : grid0.Coords, EltTy.bits .bf16 = 32 ∨ (Rect.block (s := S8x512x512) S8x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16x512.size a ≤ S16384x16x512.size a
  hwx0_3 : ∀ i : grid0.Coords, EltTy.bits .f32 = 32 ∨ (Rect.block (s := S16384x16x512) S512x16x512.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S8x512x512 : Shape := ⟨3, ![8, 512, 512]⟩
abbrev S8x512 : Shape := ⟨2, ![8, 512]⟩
abbrev S_ : Shape := ⟨0, ![]⟩
abbrev S16384 : Shape := ⟨1, ![16384]⟩
abbrev S16384x1 : Shape := ⟨2, ![16384, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S16384x1x512 : Shape := ⟨3, ![16384, 1, 512]⟩
abbrev S16384x16x512 : Shape := ⟨3, ![16384, 16, 512]⟩

abbrev nBuf : Space → Nat
  | .hbm => 218
  | .vmem => 0
  | .smem => 0
  | _ => 0

abbrev hbmTy0_0 (i : Nat) : BufTy := match i % 128 with
  | 0 => ⟨S16384x512, .f32⟩
  | 1 => ⟨S8x512x512, .f32⟩
  | 2 => ⟨S8x512, .f32⟩
  | 3 => ⟨S16384x512, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x512, .f32⟩
  | 15 => ⟨S16384x512, .f32⟩
  | 16 => ⟨S1x512x512, .f32⟩
  | 17 => ⟨S512x512, .f32⟩
  | 18 => ⟨S_, .f32⟩
  | 19 => ⟨S512x512, .f32⟩
  | 20 => ⟨S512x512, .f32⟩
  | 21 => ⟨S16384x512, .f32⟩
  | 22 => ⟨S1x512, .f32⟩
  | 23 => ⟨S512, .f32⟩
  | 24 => ⟨S_, .f32⟩
  | 25 => ⟨S512, .f32⟩
  | 26 => ⟨S512, .f32⟩
  | 27 => ⟨S1x512, .f32⟩
  | 28 => ⟨S16384x512, .f32⟩
  | 29 => ⟨S16384x512, .f32⟩
  | 30 => ⟨S_, .f32⟩
  | 31 => ⟨S_, .f32⟩
  | 32 => ⟨S16384x512, .f32⟩
  | 33 => ⟨S16384x512, .i1⟩
  | 34 => ⟨S_, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S1x512x512, .f32⟩
  | 42 => ⟨S512x512, .f32⟩
  | 43 => ⟨S_, .f32⟩
  | 44 => ⟨S512x512, .f32⟩
  | 45 => ⟨S512x512, .f32⟩
  | 46 => ⟨S16384x512, .f32⟩
  | 47 => ⟨S1x512, .f32⟩
  | 48 => ⟨S512, .f32⟩
  | 49 => ⟨S_, .f32⟩
  | 50 => ⟨S512, .f32⟩
  | 51 => ⟨S512, .f32⟩
  | 52 => ⟨S1x512, .f32⟩
  | 53 => ⟨S16384x512, .f32⟩
  | 54 => ⟨S16384x512, .f32⟩
  | 55 => ⟨S_, .f32⟩
  | 56 => ⟨S_, .f32⟩
  | 57 => ⟨S16384x512, .f32⟩
  | 58 => ⟨S16384x512, .i1⟩
  | 59 => ⟨S_, .f32⟩
  | 60 => ⟨S16384x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S1x512x512, .f32⟩
  | 67 => ⟨S512x512, .f32⟩
  | 68 => ⟨S_, .f32⟩
  | 69 => ⟨S512x512, .f32⟩
  | 70 => ⟨S512x512, .f32⟩
  | 71 => ⟨S16384x512, .f32⟩
  | 72 => ⟨S1x512, .f32⟩
  | 73 => ⟨S512, .f32⟩
  | 74 => ⟨S_, .f32⟩
  | 75 => ⟨S512, .f32⟩
  | 76 => ⟨S512, .f32⟩
  | 77 => ⟨S1x512, .f32⟩
  | 78 => ⟨S16384x512, .f32⟩
  | 79 => ⟨S16384x512, .f32⟩
  | 80 => ⟨S_, .f32⟩
  | 81 => ⟨S_, .f32⟩
  | 82 => ⟨S16384x512, .f32⟩
  | 83 => ⟨S16384x512, .i1⟩
  | 84 => ⟨S_, .f32⟩
  | 85 => ⟨S16384x512, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S1x512x512, .f32⟩
  | 92 => ⟨S512x512, .f32⟩
  | 93 => ⟨S_, .f32⟩
  | 94 => ⟨S512x512, .f32⟩
  | 95 => ⟨S512x512, .f32⟩
  | 96 => ⟨S16384x512, .f32⟩
  | 97 => ⟨S1x512, .f32⟩
  | 98 => ⟨S512, .f32⟩
  | 99 => ⟨S_, .f32⟩
  | 100 => ⟨S512, .f32⟩
  | 101 => ⟨S512, .f32⟩
  | 102 => ⟨S1x512, .f32⟩
  | 103 => ⟨S16384x512, .f32⟩
  | 104 => ⟨S16384x512, .f32⟩
  | 105 => ⟨S_, .f32⟩
  | 106 => ⟨S_, .f32⟩
  | 107 => ⟨S16384x512, .f32⟩
  | 108 => ⟨S16384x512, .i1⟩
  | 109 => ⟨S_, .f32⟩
  | 110 => ⟨S16384x512, .f32⟩
  | 111 => ⟨S16384x512, .f32⟩
  | 112 => ⟨S16384x512, .f32⟩
  | 113 => ⟨S_, .f32⟩
  | 114 => ⟨S16384x512, .f32⟩
  | 115 => ⟨S16384x512, .f32⟩
  | 116 => ⟨S1x512x512, .f32⟩
  | 117 => ⟨S512x512, .f32⟩
  | 118 => ⟨S_, .f32⟩
  | 119 => ⟨S512x512, .f32⟩
  | 120 => ⟨S512x512, .f32⟩
  | 121 => ⟨S16384x512, .f32⟩
  | 122 => ⟨S1x512, .f32⟩
  | 123 => ⟨S512, .f32⟩
  | 124 => ⟨S_, .f32⟩
  | 125 => ⟨S512, .f32⟩
  | 126 => ⟨S512, .f32⟩
  | 127 => ⟨S1x512, .f32⟩
  | _ => ⟨S16384x512, .f32⟩

abbrev hbmTy0_1 (i : Nat) : BufTy := match i % 128 with
  | 0 => ⟨S16384x512, .f32⟩
  | 1 => ⟨S16384x512, .f32⟩
  | 2 => ⟨S_, .f32⟩
  | 3 => ⟨S_, .f32⟩
  | 4 => ⟨S16384x512, .f32⟩
  | 5 => ⟨S16384x512, .i1⟩
  | 6 => ⟨S_, .f32⟩
  | 7 => ⟨S16384x512, .f32⟩
  | 8 => ⟨S16384x512, .f32⟩
  | 9 => ⟨S16384x512, .f32⟩
  | 10 => ⟨S_, .f32⟩
  | 11 => ⟨S16384x512, .f32⟩
  | 12 => ⟨S16384x512, .f32⟩
  | 13 => ⟨S1x512x512, .f32⟩
  | 14 => ⟨S512x512, .f32⟩
  | 15 => ⟨S_, .f32⟩
  | 16 => ⟨S512x512, .f32⟩
  | 17 => ⟨S512x512, .f32⟩
  | 18 => ⟨S16384x512, .f32⟩
  | 19 => ⟨S1x512, .f32⟩
  | 20 => ⟨S512, .f32⟩
  | 21 => ⟨S_, .f32⟩
  | 22 => ⟨S512, .f32⟩
  | 23 => ⟨S512, .f32⟩
  | 24 => ⟨S1x512, .f32⟩
  | 25 => ⟨S16384x512, .f32⟩
  | 26 => ⟨S16384x512, .f32⟩
  | 27 => ⟨S_, .f32⟩
  | 28 => ⟨S_, .f32⟩
  | 29 => ⟨S16384x512, .f32⟩
  | 30 => ⟨S16384x512, .i1⟩
  | 31 => ⟨S_, .f32⟩
  | 32 => ⟨S16384x512, .f32⟩
  | 33 => ⟨S16384x512, .f32⟩
  | 34 => ⟨S16384x512, .f32⟩
  | 35 => ⟨S_, .f32⟩
  | 36 => ⟨S16384x512, .f32⟩
  | 37 => ⟨S16384x512, .f32⟩
  | 38 => ⟨S1x512x512, .f32⟩
  | 39 => ⟨S512x512, .f32⟩
  | 40 => ⟨S_, .f32⟩
  | 41 => ⟨S512x512, .f32⟩
  | 42 => ⟨S512x512, .f32⟩
  | 43 => ⟨S16384x512, .f32⟩
  | 44 => ⟨S1x512, .f32⟩
  | 45 => ⟨S512, .f32⟩
  | 46 => ⟨S_, .f32⟩
  | 47 => ⟨S512, .f32⟩
  | 48 => ⟨S512, .f32⟩
  | 49 => ⟨S1x512, .f32⟩
  | 50 => ⟨S16384x512, .f32⟩
  | 51 => ⟨S16384x512, .f32⟩
  | 52 => ⟨S_, .f32⟩
  | 53 => ⟨S_, .f32⟩
  | 54 => ⟨S16384x512, .f32⟩
  | 55 => ⟨S16384x512, .i1⟩
  | 56 => ⟨S_, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S1x512x512, .f32⟩
  | 64 => ⟨S512x512, .f32⟩
  | 65 => ⟨S_, .f32⟩
  | 66 => ⟨S512x512, .f32⟩
  | 67 => ⟨S512x512, .f32⟩
  | 68 => ⟨S16384x512, .f32⟩
  | 69 => ⟨S1x512, .f32⟩
  | 70 => ⟨S512, .f32⟩
  | 71 => ⟨S_, .f32⟩
  | 72 => ⟨S512, .f32⟩
  | 73 => ⟨S512, .f32⟩
  | 74 => ⟨S1x512, .f32⟩
  | 75 => ⟨S16384x512, .f32⟩
  | 76 => ⟨S16384x512, .f32⟩
  | 77 => ⟨S_, .f32⟩
  | 78 => ⟨S_, .f32⟩
  | 79 => ⟨S16384x512, .f32⟩
  | 80 => ⟨S16384x512, .i1⟩
  | 81 => ⟨S_, .f32⟩
  | 82 => ⟨S16384x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S16384x1x512, .f32⟩
  | 89 => ⟨S16384x16x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_14 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_15 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_call3_cst : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_v4 : Ref sig .tc := ⟨.hbm, 111, rfl⟩
abbrev main_v67 : Ref sig .tc := ⟨.hbm, 112, rfl⟩
abbrev main_cst_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_18 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_19 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_20 : Ref sig .tc := ⟨.hbm, 130, rfl⟩
abbrev main_call4_cst : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_v82 : Ref sig .tc := ⟨.hbm, 137, rfl⟩
abbrev main_cst_21 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_22 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_23 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_cst_24 : Ref sig .tc := ⟨.hbm, 155, rfl⟩
abbrev main_call5_cst : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v97 : Ref sig .tc := ⟨.hbm, 162, rfl⟩
abbrev main_cst_25 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_26 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_27 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_28 : Ref sig .tc := ⟨.hbm, 180, rfl⟩
abbrev main_call6_cst : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_v112 : Ref sig .tc := ⟨.hbm, 187, rfl⟩
abbrev main_cst_29 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_30 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_31 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_32 : Ref sig .tc := ⟨.hbm, 205, rfl⟩
abbrev main_call7_cst : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v127 : Ref sig .tc := ⟨.hbm, 212, rfl⟩
abbrev main_cst_33 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  slices_S8x512x512_S1x512x512_0_0_0 : S8x512x512.Slices ![0, 0, 0] S1x512x512
  shapeCasts_S1x512x512_S512x512 : S1x512x512.ShapeCasts S512x512
  bcast_S_S512x512 : S_.BroadcastsInDim S512x512 (![] : Fin 0 → Fin S512x512.rank)
  slices_S8x512_S1x512_0_0 : S8x512.Slices ![0, 0] S1x512
  shapeCasts_S1x512_S512 : S1x512.ShapeCasts S512
  bcast_S_S512 : S_.BroadcastsInDim S512 (![] : Fin 0 → Fin S512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S8x512x512_S1x512x512_1_0_0 : S8x512x512.Slices ![1, 0, 0] S1x512x512
  slices_S8x512_S1x512_1_0 : S8x512.Slices ![1, 0] S1x512
  slices_S8x512x512_S1x512x512_2_0_0 : S8x512x512.Slices ![2, 0, 0] S1x512x512
  slices_S8x512_S1x512_2_0 : S8x512.Slices ![2, 0] S1x512
  slices_S8x512x512_S1x512x512_3_0_0 : S8x512x512.Slices ![3, 0, 0] S1x512x512
  slices_S8x512_S1x512_3_0 : S8x512.Slices ![3, 0] S1x512
  slices_S8x512x512_S1x512x512_4_0_0 : S8x512x512.Slices ![4, 0, 0] S1x512x512
  slices_S8x512_S1x512_4_0 : S8x512.Slices ![4, 0] S1x512
  slices_S8x512x512_S1x512x512_5_0_0 : S8x512x512.Slices ![5, 0, 0] S1x512x512
  slices_S8x512_S1x512_5_0 : S8x512.Slices ![5, 0] S1x512
  slices_S8x512x512_S1x512x512_6_0_0 : S8x512x512.Slices ![6, 0, 0] S1x512x512
  slices_S8x512_S1x512_6_0 : S8x512.Slices ![6, 0] S1x512
  slices_S8x512x512_S1x512x512_7_0_0 : S8x512x512.Slices ![7, 0, 0] S1x512x512
  slices_S8x512_S1x512_7_0 : S8x512.Slices ![7, 0] S1x512
  bcast_S16384x512_S16384x1x512_0_2 : S16384x512.BroadcastsInDim S16384x1x512 (![0, 2] : Fin 2 → Fin S16384x1x512.rank)
  bcast_S16384x1x512_S16384x16x512_0_1_2 : S16384x1x512.BroadcastsInDim S16384x16x512 (![0, 1, 2] : Fin 3 → Fin S16384x16x512.rank)
  dot_S16384x512_S512x512_S16384x512_1_1_0_0_n_n_wf : DotDims.WF S16384x512 S512x512 S16384x512 [1] [1] [0] [0] [] []

variable [Facts₀]

def dot_S16384x512_S512x512_S16384x512_1_1_0_0_n_n : DotDims S16384x512 S512x512 S16384x512 where
  lhsContracting := [1]
  rhsContracting := [1]
  lhsNonContracting := [0]
  rhsNonContracting := [0]
  lhsBatch := []
  rhsBatch := []
  wf := dot_S16384x512_S512x512_S16384x512_1_1_0_0_n_n_wf

class Facts : Prop extends Facts₀ where

variable [Facts]
-- ==== Proof.Spec.lean ====
/-
  The mapping network as a function of ONE row, over the extended reals.

  A row r of length K is first scaled to unit mean square: entry k becomes r k · (mean of the squares of r + ε)^(-1/2).
  Then eight dense layers follow; a layer with weights w (one row of K numbers per output j) and biases b sends a row r
  to the row whose entry j is the leaky unit of ∑ₖ r k · w j k + b j, times a gain. The leaky unit keeps a value that
  is at least 0 and multiplies any other by a slope. The result of the whole network for a batch row depends on that
  row alone.
-/
import Idealize.ShloMosaic.PureOps.Ideal
import Idealize.ShloMosaic.Lib.ValueIdx

noncomputable section

open scoped BigOperators

namespace Cert.Mapping

open Idealize.ShloMosaic Idealize.ShloMosaic.ValueIdx

/-- The leaky unit with its gain: y where 0 ≤ y and y · slope elsewhere, the whole times the gain. -/
def act (y : EReal) : EReal :=
  Scalar.select (Ideal.cmp .oge y (Ideal.ofBits .f32 0x00000000#32)) y (y * Ideal.ofBits .f32 0x3E4CCCCD#32)
    * Ideal.ofBits .f32 0x3FB504F3#32

/-- A row scaled to unit mean square: entry k times the reciprocal root of (the sum of the row's squares over the
    divisor, plus ε). -/
def normRow {K : ℕ} (r : Fin K → EReal) (k : Fin K) : EReal :=
  r k * Ideal.rsqrt (Ideal.div (∑ e : Fin K, r e * r e) (Ideal.ofBits .f32 0x44000000#32) + Ideal.ofBits .f32 0x322BCC77#32)

/-- One dense layer on a row: entry j is the leaky unit of ∑ₖ r k · w j k + b j. -/
def layerRow {K N : ℕ} (w : Fin N → Fin K → EReal) (b : Fin N → EReal) (r : Fin K → EReal) (j : Fin N) : EReal :=
  act ((∑ k : Fin K, r k * w j k) + b j)

/-- The eight layers after the scaling, layer l with weights W l and biases B l. -/
def network {K : ℕ} (W : Fin 8 → Fin K → Fin K → EReal) (B : Fin 8 → Fin K → EReal) (r : Fin K → EReal) : Fin K → EReal :=
  layerRow (W 7) (B 7) (layerRow (W 6) (B 6) (layerRow (W 5) (B 5) (layerRow (W 4) (B 4)
    (layerRow (W 3) (B 3) (layerRow (W 2) (B 2) (layerRow (W 1) (B 1) (layerRow (W 0) (B 0) (normRow r))))))))

/-- The stored weight (l, j, k) times the weight scale. -/
def scaledW (Wa : (⟨3, ![8, 512, 512]⟩ : Shape).Idx → EReal) (l : Fin 8) (j k : Fin 512) : EReal :=
  Wa (ix3 l j k) * Ideal.ofBits .f32 0x39E7B46A#32

/-- The stored bias (l, j) times the bias scale. -/
def scaledB (Ba : (⟨2, ![8, 512]⟩ : Shape).Idx → EReal) (l : Fin 8) (j : Fin 512) : EReal :=
  Ba (ix2 l j) * Ideal.ofBits .f32 0x3C23D70A#32

/-- The result at batch row p, copy o, feature j: the network of row p of z, whatever the copy. -/
def outAt (z : (⟨2, ![16384, 512]⟩ : Shape).Idx → EReal) (Wa : (⟨3, ![8, 512, 512]⟩ : Shape).Idx → EReal)
    (Ba : (⟨2, ![8, 512]⟩ : Shape).Idx → EReal) (p : Fin 16384) (_o : Fin 16) (j : Fin 512) : EReal :=
  network (scaledW Wa) (scaledB Ba) (fun k => z (ix2 p k)) j

/-- The whole result array, index by index. -/
def out (z : (⟨2, ![16384, 512]⟩ : Shape).Idx → EReal) (Wa : (⟨3, ![8, 512, 512]⟩ : Shape).Idx → EReal)
    (Ba : (⟨2, ![8, 512]⟩ : Shape).Idx → EReal) : (⟨3, ![16384, 16, 512]⟩ : Shape).Idx → EReal :=
  fun i => outAt z Wa Ba (i 0) (i 1) (i 2)

theorem out_ix3 (z : (⟨2, ![16384, 512]⟩ : Shape).Idx → EReal) (Wa : (⟨3, ![8, 512, 512]⟩ : Shape).Idx → EReal)
    (Ba : (⟨2, ![8, 512]⟩ : Shape).Idx → EReal) (p : Fin 16384) (o : Fin 16) (j : Fin 512) :
    out z Wa Ba (ix3 p o j) = outAt z Wa Ba p o j := rfl

/-- The slope may stand on either side of the product. -/
theorem act_comm (y : EReal) :
    Scalar.select (Ideal.cmp .oge y (Ideal.ofBits .f32 0x00000000#32)) y (Ideal.ofBits .f32 0x3E4CCCCD#32 * y)
      * Ideal.ofBits .f32 0x3FB504F3#32 = act y := by
  unfold act; rw [mul_comm (Ideal.ofBits .f32 0x3E4CCCCD#32) y]

end Cert.Mapping

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«178076_j79817672229324_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«178076_j79817672229324_1_alg».proof.Proof.LibDenseRows
import proofs.«178076_j79817672229324_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibMidAxis.lean ====
/-
  Two layout operations read at an index, generic in the sizes: an [a, b] array recast as [a, 1, b] (a unit axis put in
  the middle), and an [a, 1, b] array repeated along that unit axis to [a, g, b]. Together they are
  `v[:, None, :]` broadcast against an [a, g, b] array: position (p, k, c) holds v(p, c) for every k.
-/
import Idealize.ShloMosaic.Lib.ValueIdx
import Idealize.ShloMosaic.Lib.Pipeline.Value

namespace Cert.MidAxis

open Idealize.ShloMosaic Idealize.ShloMosaic.ValueIdx

variable {α : Type} {a g b : ℕ}

/-- An [a, b] array recast as [a, 1, b]: position (p, 0, c) holds the entry at (p, c), the two indices having one
    row-major position. -/
theorem shapeCast_ab_a1b_apply (x : (⟨2, ![a, b]⟩ : Shape).Idx → α) (h : (⟨2, ![a, b]⟩ : Shape).ShapeCasts ⟨3, ![a, 1, b]⟩)
    (p : Fin a) (c : Fin b) :
    shapeCast ⟨3, ![a, 1, b]⟩ x h (ix3 p (0 : Fin 1) c) = x (ix2 p c) :=
  shapeCast_apply x h _ _ (by
    rw [Shape.rowMajor_val_two, Shape.rowMajor_val_three]
    show p.val * b + c.val = (p.val * 1 + 0) * b + c.val
    rw [Nat.mul_one, Nat.add_zero])

/-- An [a, 1, b] array repeated along its unit axis to [a, g, b]: position (p, k, c) holds the entry at (p, 0, c). -/
theorem broadcastTo_a1b_agb_apply (v : (⟨3, ![a, 1, b]⟩ : Shape).Idx → α) (h : (⟨3, ![a, 1, b]⟩ : Shape).Broadcasts ⟨3, ![a, g, b]⟩)
    (p : Fin a) (k : Fin g) (c : Fin b) :
    broadcastTo ⟨3, ![a, g, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- The two together: `v[:, None, :]` against an [a, g, b] array reads v(p, c) at (p, k, c). -/
theorem keepMid_apply (x : (⟨2, ![a, b]⟩ : Shape).Idx → α) (hc : (⟨2, ![a, b]⟩ : Shape).ShapeCasts ⟨3, ![a, 1, b]⟩)
    (hb : (⟨3, ![a, 1, b]⟩ : Shape).Broadcasts ⟨3, ![a, g, b]⟩) (p : Fin a) (k : Fin g) (c : Fin b) :
    broadcastTo ⟨3, ![a, g, b]⟩ (shapeCast ⟨3, ![a, 1, b]⟩ x hc) hb (ix3 p k c) = x (ix2 p c) :=
  (broadcastTo_a1b_agb_apply _ hb p k c).trans (shapeCast_ab_a1b_apply x hc p c)

end Cert.MidAxis
-- ==== Proof.KBody.lean ====
/-
  The kernel's body on one tile of 512 batch rows, read row by row at the exact (extended-real) instance.

  The body scales each row of the tile to unit mean square, then runs eight dense layers on it: layer l multiplies the
  activations by the l-th weight matrix (stored input-major: entry (k, j) weighs input k for output j), adds the l-th
  bias row, applies the leaky unit and the gain. The last layer's activations are copied along a new middle axis of
  sixteen. Changes of float format between the layers do nothing to an extended real. Every step works on each row of
  the tile by itself, so row p of the result is the network of `Spec` applied to row p of the tile.
-/
import proofs.«178076_j79817672229324_1_alg».proof.Proof.Gen.KernelIdeal.Skeleton
import proofs.«178076_j79817672229324_1_alg».proof.Proof.Spec
import proofs.«178076_j79817672229324_1_alg».proof.Proof.LibPlainLayers
import proofs.«178076_j79817672229324_1_alg».proof.Proof.LibMidAxis

noncomputable section

open scoped BigOperators

namespace Cert.KernelIdeal.Rows

open Cert.KernelIdeal Cert.KernelIdeal.Gen Idealize.ShloMosaic Idealize.ShloMosaic.ValueIdx Cert.Mapping

/-- Row p of a 512 × 512 tile. -/
def row (x : S512x512.Idx → EReal) (p : Fin 512) : Fin 512 → EReal := fun k => x (ix2 p k)

/-- The tile's rows scaled to unit mean square, as the body computes them. -/
def bNorm (v0 : FVec Ideal S512x512 .f32) : FVec Ideal S512x512 .bf16 :=
  truncf .bf16
    (mulf v0 (broadcastTo S512x512
      (rsqrt (addf
        (divf
          (shapeCast S512x1 (multiReduction .add [1] S512 (mulf v0 v0) 0x00000000#32 reduces_S512x512_S512 (.inl rfl) rfl) shapeCasts_S512_S512x1)
          (broadcast S512x1 (Scalar.ofBits .f32 0x44000000#32)))
        (broadcast S512x1 (Scalar.ofBits .f32 0x322BCC77#32))))
      broadcasts_S512x1_S512x512))
    bitsLt_bf16_f32

/-- A layer's values before the leaky unit: activations times the weight slice, plus the bias slice down the rows. -/
def bDense (x : FVec Ideal S512x512 .bf16) (w : FVec Ideal S1x512x512 .bf16) (b : FVec Ideal S1x512 .f32) : FVec Ideal S512x512 .f32 :=
  addf
    (matmul dot_S512x512_S512x512_S512x512_1_0_0_1_n_n none x (shapeCast S512x512 w shapeCasts_S1x512x512_S512x512)
      (constant S512x512 .f32 0x00000000#32))
    (broadcastTo S512x512 (shapeCast S1x512 (shapeCast S512 b shapeCasts_S1x512_S512) shapeCasts_S512_S1x512) broadcasts_S1x512_S512x512)

/-- The leaky unit and the gain on a tile. -/
def bAct (y : FVec Ideal S512x512 .f32) : FVec Ideal S512x512 .f32 :=
  mulf
    (select (cmpf .oge y (broadcast S512x512 (Scalar.ofBits .f32 0x00000000#32))) y
      (mulf y (broadcast S512x512 (Scalar.ofBits .f32 0x3E4CCCCD#32))))
    (broadcast S512x512 (Scalar.ofBits .f32 0x3FB504F3#32))

/-- One layer, its result in the format the next product reads. -/
def bLayer (x : FVec Ideal S512x512 .bf16) (w : FVec Ideal S1x512x512 .bf16) (b : FVec Ideal S1x512 .f32) : FVec Ideal S512x512 .bf16 :=
  truncf .bf16 (bAct (bDense x w b)) bitsLt_bf16_f32

/-- The last layer's activations copied along a new middle axis of sixteen. -/
def bSpread (y : FVec Ideal S512x512 .f32) : FVec Ideal S512x16x512 .f32 :=
  broadcastTo S512x16x512
    (shapeCast S512x1x512 (shapeCast S512x1x512 y shapeCasts_S512x512_S512x1x512) shapeCasts_S512x1x512_S512x1x512)
    broadcasts_S512x1x512_S512x16x512

/-! ## Row by row -/

/-- Row p of the scaled tile is the scaled row p. -/
theorem bNorm_row (v0 : FVec Ideal S512x512 .f32) (p : Fin 512) : row (bNorm v0) p = normRow (row v0 p) := by
  funext k
  show v0 (ix2 p k) * _ = v0 (ix2 p k) * _
  refine congrArg (v0 (ix2 p k) * ·) ?_
  refine (Cert.Columns.broadcastTo_a1_ab_apply _ broadcasts_S512x1_S512x512 p k).trans ?_
  exact congrArg (fun t => Ideal.rsqrt (Ideal.div t (Ideal.ofBits .f32 0x44000000#32) + Ideal.ofBits .f32 0x322BCC77#32))
    (Cert.Columns.keepdimsSum_apply (mulf v0 v0) 0x00000000#32 reduces_S512x512_S512 (.inl rfl) rfl shapeCasts_S512_S512x1 p 0)

/-- A layer before the leaky unit, at (p, j): ∑ₖ x (p, k) · w (0, k, j) + b (0, j). -/
theorem bDense_apply (x : FVec Ideal S512x512 .bf16) (w : FVec Ideal S1x512x512 .bf16) (b : FVec Ideal S1x512 .f32)
    (p j : Fin 512) :
    bDense x w b (ix2 p j) = (∑ k : Fin 512, x (ix2 p k) * w (ix3 (0 : Fin 1) k j)) + b (ix2 (0 : Fin 1) j) := by
  refine congrArg₂ (· + ·) ?_ ?_
  · refine (Cert.PlainLayers.plainMM_of_eq dot_S512x512_S512x512_S512x512_1_0_0_1_n_n rfl none x _ p j).trans ?_
    exact Finset.sum_congr rfl fun k _ => congrArg (x (ix2 p k) * ·) (shapeCast_1ab_ab_apply w shapeCasts_S1x512x512_S512x512 k j)
  · refine (broadcastTo_1b_ab_apply _ broadcasts_S1x512_S512x512 p j).trans ?_
    exact congrFun (shapeCast_shapeCast b shapeCasts_S1x512_S512 shapeCasts_S512_S1x512) _

/-- The leaky unit on a tile is the leaky unit of each entry. -/
theorem bAct_apply (y : FVec Ideal S512x512 .f32) (i : S512x512.Idx) : bAct y i = act (y i) := rfl

/-- Row p after a layer is the layer of row p before it. -/
theorem bLayer_row (x : FVec Ideal S512x512 .bf16) (w : FVec Ideal S1x512x512 .bf16) (b : FVec Ideal S1x512 .f32) (p : Fin 512) :
    row (bLayer x w b) p = layerRow (fun j k => w (ix3 (0 : Fin 1) k j)) (fun j => b (ix2 (0 : Fin 1) j)) (row x p) := by
  funext j
  show act (bDense x w b (ix2 p j)) = _
  rw [bDense_apply]
  rfl

/-- The same for the last layer, whose activations stay in the wide format. -/
theorem bLast_row (x : FVec Ideal S512x512 .bf16) (w : FVec Ideal S1x512x512 .bf16) (b : FVec Ideal S1x512 .f32) (p : Fin 512) :
    row (bAct (bDense x w b)) p = layerRow (fun j k => w (ix3 (0 : Fin 1) k j)) (fun j => b (ix2 (0 : Fin 1) j)) (row x p) :=
  bLayer_row x w b p

/-- The copies: position (p, o, j) holds the activation (p, j). -/
theorem bSpread_apply (y : FVec Ideal S512x512 .f32) (p : Fin 512) (o : Fin 16) (j : Fin 512) :
    bSpread y (ix3 p o j) = y (ix2 p j) := by
  unfold bSpread
  rw [shapeCast_self]
  exact Cert.MidAxis.keepMid_apply y shapeCasts_S512x512_S512x1x512 broadcasts_S512x1x512_S512x16x512 p o j

end Cert.KernelIdeal.Rows

end
-- ==== Proof.KPay.lean ====
/-
  What the kernel's body leaves in the output tile, entry by entry.

  The body reads a tile of 512 batch rows, the eight weight matrices and the eight bias rows, each through its own
  rectangle of the staged blocks, and stores one [512, 16, 512] tile. Entry (p, o, j) of that tile is the network of
  `Spec` applied to row p of the batch tile, at feature j, with weights (l, j, k) read at position (l, k, j) of the
  staged weights (they are staged input-major) and biases read at (l, j) — whatever the copy o.
-/
import proofs.«178076_j79817672229324_1_alg».proof.Proof.Gen.KernelIdeal.Frame
import proofs.«178076_j79817672229324_1_alg».proof.Proof.KBody

noncomputable section

open scoped BigOperators

namespace Cert.KernelIdeal.Rows

open Cert.KernelIdeal Cert.KernelIdeal.Gen Idealize.ShloMosaic Idealize.ShloMosaic.ValueIdx Cert.Mapping

theorem hz3 : (![0, 0, 0] : Fin 3 → Nat) = fun _ => 0 := funext fun a => by fin_cases a <;> rfl
theorem hz2 : (![0, 0] : Fin 2 → Nat) = fun _ => 0 := funext fun a => by fin_cases a <;> rfl

theorem inbW (l : Fin 8) : ∀ a, (![l.val, 0, 0] : Fin 3 → Nat) a + S1x512x512.size a ≤ S8x512x512.size a := fun a => by
  have := l.isLt
  match a with
  | ⟨0, _⟩ => show l.val + 1 ≤ 8; omega
  | ⟨1, _⟩ => show 0 + 512 ≤ 512; omega
  | ⟨2, _⟩ => show 0 + 512 ≤ 512; omega

theorem inbB (l : Fin 8) : ∀ a, (![l.val, 0] : Fin 2 → Nat) a + S1x512.size a ≤ S8x512.size a := fun a => by
  have := l.isLt
  match a with
  | ⟨0, _⟩ => show l.val + 1 ≤ 8; omega
  | ⟨1, _⟩ => show 0 + 512 ≤ 512; omega

/-- The rectangle of weight matrix l in the staged weights, and of bias row l in the staged biases. -/
abbrev rW (l : Fin 8) : Rect S8x512x512 := Rect.unit (s := S8x512x512) ![l.val, 0, 0] S1x512x512.size (inbW l)
abbrev rB (l : Fin 8) : Rect S8x512 := Rect.unit (s := S8x512) ![l.val, 0] S1x512.size (inbB l)

/-- Weight matrix l read through its rectangle: position (0, k, j) is the staged weights' (l, k, j). -/
theorem ldW (x1 : Vec Ideal S8x512x512 .bf16) (l : Fin 8) (k j : Fin 512) :
    View.ld x1 (rW l) (ix3 (0 : Fin 1) k j) = x1 (ix3 l k j) := by
  refine congrArg x1 (funext fun a => Fin.ext ?_)
  match a with
  | ⟨0, _⟩ => show l.val + 1 * 0 = l.val; omega
  | ⟨1, _⟩ => show 0 + 1 * k.val = k.val; omega
  | ⟨2, _⟩ => show 0 + 1 * j.val = j.val; omega

/-- Bias row l read through its rectangle: position (0, j) is the staged biases' (l, j). -/
theorem ldB (x2 : Vec Ideal S8x512 .f32) (l : Fin 8) (j : Fin 512) :
    View.ld x2 (rB l) (ix2 (0 : Fin 1) j) = x2 (ix2 l j) := by
  refine congrArg x2 (funext fun a => Fin.ext ?_)
  match a with
  | ⟨0, _⟩ => show l.val + 1 * 0 = l.val; omega
  | ⟨1, _⟩ => show 0 + 1 * j.val = j.val; omega

/-- The body's operations on a batch tile and eight weight and bias slices: scaling, eight layers, the copies. -/
def bBody (A0 : FVec Ideal S512x512 .f32) (Wt : Fin 8 → FVec Ideal S1x512x512 .bf16) (Bt : Fin 8 → FVec Ideal S1x512 .f32) :
    FVec Ideal S512x16x512 .f32 :=
  bSpread (bAct (bDense (bLayer (bLayer (bLayer (bLayer (bLayer (bLayer (bLayer (bNorm A0)
    (Wt 0) (Bt 0)) (Wt 1) (Bt 1)) (Wt 2) (Bt 2)) (Wt 3) (Bt 3)) (Wt 4) (Bt 4)) (Wt 5) (Bt 5)) (Wt 6) (Bt 6)) (Wt 7) (Bt 7)))

/-- Entry (p, o, j) of the body's result: the network of row p, at j. -/
theorem bBody_apply (A0 : FVec Ideal S512x512 .f32) (Wt : Fin 8 → FVec Ideal S1x512x512 .bf16) (Bt : Fin 8 → FVec Ideal S1x512 .f32)
    (p : Fin 512) (o : Fin 16) (j : Fin 512) :
    bBody A0 Wt Bt (ix3 p o j)
      = network (fun l j k => Wt l (ix3 (0 : Fin 1) k j)) (fun l j => Bt l (ix2 (0 : Fin 1) j)) (row A0 p) j := by
  unfold bBody network
  rw [bSpread_apply]
  show row (bAct (bDense _ (Wt 7) (Bt 7))) p j = _
  rw [bLast_row, bLayer_row, bLayer_row, bLayer_row, bLayer_row, bLayer_row, bLayer_row, bLayer_row, bNorm_row]

/-- The stored payload is those operations of the loaded pieces: the printed payloads unfold to them. -/
theorem pay_eq (x0 : Vec Ideal S512x512 .f32) (x1 : Vec Ideal S8x512x512 .bf16) (x2 : Vec Ideal S8x512 .f32) :
    k0_pay1 (F := Ideal) (k0_pay5 (k0_pay4 (k0_pay2 (View.ld x0 r0_0) (View.ld x1 r0_1) (View.ld x2 r0_2) (View.ld x1 r0_3) (View.ld x2 r0_4)) (k0_pay3 (View.ld x0 r0_0) (View.ld x1 r0_1) (View.ld x2 r0_2) (View.ld x1 r0_3) (View.ld x2 r0_4)) (View.ld x1 r0_5) (View.ld x2 r0_6) (View.ld x1 r0_7) (View.ld x2 r0_8)) (View.ld x1 r0_9) (View.ld x2 r0_10) (View.ld x1 r0_11) (View.ld x2 r0_12) (View.ld x1 r0_13)) (k0_pay6 (View.ld x2 r0_14)) (View.ld x1 r0_15) (View.ld x2 r0_16)
      = bBody (View.ld x0 r0_0) (fun l => View.ld x1 (rW l)) (fun l => View.ld x2 (rB l)) := rfl

/-- THE OUTPUT TILE at (p, o, j): the network of row p of the batch tile at feature j, the weights read input-major. -/
theorem out0_3_apply (x0 : Vec Ideal S512x512 .f32) (x1 : Vec Ideal S8x512x512 .bf16) (x2 : Vec Ideal S8x512 .f32)
    (p : Fin 512) (o : Fin 16) (j : Fin 512) :
    out0_3 (F := Ideal) x0 x1 x2 (ix3 p o j)
      = network (fun l j k => x1 (ix3 l k j)) (fun l j => x2 (ix2 l j)) (fun k => x0 (ix2 p k)) j := by
  unfold out0_3
  rw [View.canon_unit_zero hz3, pay_eq, bBody_apply]
  have hw : (fun (l : Fin 8) (j k : Fin 512) => View.ld x1 (rW l) (ix3 (0 : Fin 1) k j)) = fun l j k => x1 (ix3 l k j) :=
    funext fun l => funext fun j => funext fun k => ldW x1 l k j
  have hb : (fun (l : Fin 8) (j : Fin 512) => View.ld x2 (rB l) (ix2 (0 : Fin 1) j)) = fun l j => x2 (ix2 l j) :=
    funext fun l => funext fun j => ldB x2 l j
  have hr : row (View.ld x0 r0_0) p = fun k => x0 (ix2 p k) := by
    rw [View.ld_unit_zero (S := S512x512) hz2]; rfl
  rw [hw, hb, hr]

end Cert.KernelIdeal.Rows

end
-- ==== Proof.KValue.lean ====
/-
  The kernel's result array after the run, as ONE function of the argument arrays.

  Grid point t stages rows 512·t … 512·t + 511 of the batch, all eight weight matrices (transposed and scaled by the
  host operations before the launch) and all eight bias rows (scaled there), and writes back rows 512·t … 512·t + 511
  of the result. What it writes at (p, o, j) is the network of batch row 512·t + p at feature j, whatever o: the tile of
  `Cert.Mapping.out` that the point's block names. The thirty-two blocks cover the result array, so it ends holding
  `Cert.Mapping.out` of the three arguments.
-/
import proofs.«178076_j79817672229324_1_alg».proof.Proof.Gen.KernelIdeal.Value
import proofs.«178076_j79817672229324_1_alg».proof.Proof.KPay
import Idealize.ShloMosaic.Lib.IdealHost

noncomputable section

namespace Cert.KernelIdeal.Rows

open Cert.KernelIdeal Cert.KernelIdeal.Gen Idealize.ShloMosaic Idealize.ShloMosaic.TcCoe Idealize.SL.Sem
open Idealize.ShloMosaic.ValueIdx Cert.Mapping
open Idealize.ShloMosaic.Pipeline (Dat)

variable (m : (ℓ : Loc nD τ sig) → Buf (Elt Ideal) ℓ) (ρ : Dev nD → PrngReg)

/-- The argument arrays as launched. -/
abbrev zArg (c : Dev nD) : S16384x512.Idx → EReal := m ((c : Thread nD τ).loc main_arg0)
abbrev wArg (c : Dev nD) : S8x512x512.Idx → EReal := m ((c : Thread nD τ).loc main_arg1)
abbrev bArg (c : Dev nD) : S8x512.Idx → EReal := m ((c : Thread nD τ).loc main_arg2)

/-- The block index of each window at each grid point: the batch and result windows move with the point, the weights
    and biases stay (decided over the thirty-two points). -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The staged arrays as the region finds them -/

/-- The staged weights at (l, k, j): the stored weight (l, j, k) times the weight scale. -/
theorem V_w (c : Dev nD) (l : Fin 8) (k j : Fin 512) :
    (V m c main_v3 : S8x512x512.Idx → EReal) (ix3 l k j) = scaledW (wArg m c) l j k := by
  have e : (V m c main_v3 : S8x512x512.Idx → EReal)
      = truncf .bf16 (mulf (transpose S8x512x512 [0, 2, 1] (wArg m c) transposes_S8x512x512_S8x512x512_0_2_1)
          (broadcastInDim S8x512x512 ![] bcast_S_S8x512x512 (constant (F := Ideal) S_ .f32 0x39E7B46A#32))) bitsLt_bf16_f32 := by
    dsimp only [Gen.V, Gen.hostOps0]; after_results
  rw [e]
  show transpose S8x512x512 [0, 2, 1] (wArg m c) transposes_S8x512x512_S8x512x512_0_2_1 (ix3 l k j)
      * broadcastInDim S8x512x512 ![] bcast_S_S8x512x512 (constant (F := Ideal) S_ .f32 0x39E7B46A#32) (ix3 l k j) = _
  rw [transpose_ix3_021_apply, broadcastInDim_scalar_apply]
  rfl

/-- The staged biases at (l, j): the stored bias (l, j) times the bias scale. -/
theorem V_b (c : Dev nD) (l : Fin 8) (j : Fin 512) :
    (V m c main_v5 : S8x512.Idx → EReal) (ix2 l j) = scaledB (bArg m c) l j := by
  have e : (V m c main_v5 : S8x512.Idx → EReal)
      = mulf (bArg m c) (broadcastInDim S8x512 ![] bcast_S_S8x512 (constant (F := Ideal) S_ .f32 0x3C23D70A#32)) := by
    dsimp only [Gen.V, Gen.hostOps0]; after_results
  rw [e]
  show bArg m c (ix2 l j) * broadcastInDim S8x512 ![] bcast_S_S8x512 (constant (F := Ideal) S_ .f32 0x3C23D70A#32) (ix2 l j) = _
  rw [broadcastInDim_scalar_apply]
  rfl

/-! ## The blocks a point stages -/

/-- The batch block at point t: rows 512·t … of the batch. -/
theorem iblk0_apply (c : Dev nD) (t : Fin cfg0.N) (p k : Fin 512) (P : Fin 16384) (hP : P.val = 512 * t.val + p.val) :
    (iblk m c 0 t : Vec Ideal S512x512 .f32) (ix2 p k) = zArg m c (ix2 P k) := by
  obtain ⟨e0, e1, -⟩ := idx_facts t
  unfold iblk
  rw [View.read_apply]
  show V m c main_arg0 _ = _
  rw [V_main_arg0]
  refine congrArg (zArg m c) (funext fun a => Fin.ext ?_)
  match a with
  | ⟨0, _⟩ => show win0_0.index t (0 : Fin 2) * 512 + 1 * p.val = P.val; rw [e0, hP]; omega
  | ⟨1, _⟩ => show win0_0.index t (1 : Fin 2) * 512 + 1 * k.val = k.val; rw [e1]; omega

/-- The weights block at any point: the whole staged array. -/
theorem iblk1_apply (c : Dev nD) (t : Fin cfg0.N) (l : Fin 8) (k j : Fin 512) :
    (iblk m c 1 t : Vec Ideal S8x512x512 .bf16) (ix3 l k j) = scaledW (wArg m c) l j k := by
  obtain ⟨-, -, e0, e1, e2, -⟩ := idx_facts t
  unfold iblk
  rw [View.read_apply]
  show V m c main_v3 _ = _
  refine Eq.trans (congrArg (V m c main_v3 : S8x512x512.Idx → EReal) (funext fun a => Fin.ext ?_)) (V_w m c l k j)
  match a with
  | ⟨0, _⟩ => show win0_1.index t (0 : Fin 3) * 8 + 1 * l.val = l.val; rw [e0]; omega
  | ⟨1, _⟩ => show win0_1.index t (1 : Fin 3) * 512 + 1 * k.val = k.val; rw [e1]; omega
  | ⟨2, _⟩ => show win0_1.index t (2 : Fin 3) * 512 + 1 * j.val = j.val; rw [e2]; omega

/-- The biases block at any point: the whole staged array. -/
theorem iblk2_apply (c : Dev nD) (t : Fin cfg0.N) (l : Fin 8) (j : Fin 512) :
    (iblk m c 2 t : Vec Ideal S8x512 .f32) (ix2 l j) = scaledB (bArg m c) l j := by
  obtain ⟨-, -, -, -, -, e0, e1, -⟩ := idx_facts t
  unfold iblk
  rw [View.read_apply]
  show V m c main_v5 _ = _
  refine Eq.trans (congrArg (V m c main_v5 : S8x512.Idx → EReal) (funext fun a => Fin.ext ?_)) (V_b m c l j)
  match a with
  | ⟨0, _⟩ => show win0_2.index t (0 : Fin 2) * 8 + 1 * l.val = l.val; rw [e0]; omega
  | ⟨1, _⟩ => show win0_2.index t (1 : Fin 2) * 512 + 1 * j.val = j.val; rw [e1]; omega

/-! ## What a point writes back -/

/-- The network of equal weights, biases and rows is the same number. -/
theorem network_congr {K : ℕ} {W W' : Fin 8 → Fin K → Fin K → EReal} {B B' : Fin 8 → Fin K → EReal} {r r' : Fin K → EReal}
    (hW : W = W') (hB : B = B') (hr : r = r') (j : Fin K) : network W B r j = network W' B' r' j := by
  subst hW hB hr; rfl

/-- The result as one function of the arguments as launched. -/
abbrev G (c : Dev nD) : S16384x16x512.Idx → EReal := out (zArg m c) (wArg m c) (bArg m c)

/-- Entry (p, o, j) of the tile point t stores: the network of batch row 512·t + p, at j. -/
theorem tile_entry (c : Dev nD) (t : Fin cfg0.N) (p : Fin 512) (o : Fin 16) (j : Fin 512) (P : Fin 16384)
    (hP : P.val = 512 * t.val + p.val) :
    out0_3 (F := Ideal) (iblk m c 0 t) (iblk m c 1 t) (iblk m c 2 t) (ix3 p o j) = outAt (zArg m c) (wArg m c) (bArg m c) P o j := by
  refine (out0_3_apply (iblk m c 0 t) (iblk m c 1 t) (iblk m c 2 t) p o j).trans ?_
  unfold outAt
  have hw : (fun (l : Fin 8) (j k : Fin 512) => (iblk m c 1 t : Vec Ideal S8x512x512 .bf16) (ix3 l k j)) = scaledW (wArg m c) :=
    funext fun l => funext fun j => funext fun k => iblk1_apply m c t l k j
  have hb : (fun (l : Fin 8) (j : Fin 512) => (iblk m c 2 t : Vec Ideal S8x512 .f32) (ix2 l j)) = scaledB (bArg m c) :=
    funext fun l => funext fun j => iblk2_apply m c t l j
  have hr : (fun k : Fin 512 => (iblk m c 0 t : Vec Ideal S512x512 .f32) (ix2 p k)) = fun k => zArg m c (ix2 P k) :=
    funext fun k => iblk0_apply m c t p k P hP
  exact network_congr hw hb hr j

/-- WHAT POINT t WRITES BACK is block t of `G`: rows 512·t … 512·t + 511 of the result. -/
theorem flushed_eq (c : Dev nD) (t : Fin cfg0.N) :
    (dats m 0 c).flushed 3 t = ((cfg0.win 3).blk t).view.read (Elt Ideal) (G m c) := by
  rw [Value.flushed3]
  funext y
  obtain ⟨p, o, j, rfl⟩ : ∃ (p : Fin 512) (o : Fin 16) (j : Fin 512), y = ix3 p o j := ⟨y 0, y 1, y 2, eq_ix3 y⟩
  obtain ⟨-, -, -, -, -, -, -, e0, e1, e2⟩ := idx_facts t
  have hN : cfg0.N = 32 := N_0
  have ht := t.isLt
  have hp := p.isLt
  have hPlt : 512 * t.val + p.val < 16384 := by omega
  show out0_3 (F := Ideal) (iblk m c 0 t) (iblk m c 1 t) (iblk m c 2 t) (ix3 p o j) = G m c (((cfg0.win 3).blk t).view.emb (ix3 p o j))
  have hemb : ((cfg0.win 3).blk t).view.emb (ix3 p o j) = ix3 (⟨512 * t.val + p.val, hPlt⟩ : Fin 16384) o j := by
    funext a; apply Fin.ext
    match a with
    | ⟨0, _⟩ => show win0_3.index t (0 : Fin 3) * 512 + 1 * p.val = 512 * t.val + p.val; rw [e0]; omega
    | ⟨1, _⟩ => show win0_3.index t (1 : Fin 3) * 16 + 1 * o.val = o.val; rw [e1]; omega
    | ⟨2, _⟩ => show win0_3.index t (2 : Fin 3) * 512 + 1 * j.val = j.val; rw [e2]; omega
  rw [hemb]
  exact tile_entry m c t p o j ⟨512 * t.val + p.val, hPlt⟩ rfl

/-- An index of the result is in point t's block iff each coordinate is in the block's range on its axis. -/
theorem mem_blk (t : Fin cfg0.N) (i : S16384x16x512.Idx) :
    i ∈ ((cfg0.win 3).blk t).view.set ↔ ∀ a : Fin 3, win0_3.index t a * S512x16x512.size a ≤ (i a).val ∧ (i a).val < win0_3.index t a * S512x16x512.size a + S512x16x512.size a := by
  show i ∈ ((View.whole main_v6).slice (win0_3.rect t)).set ↔ _
  rw [View.set_slice_whole, Rect.mem_set_unit]
  exact Iff.rfl

/-- THE RESULT ARRAY after the run is `G`: the block of rows 512·(r / 512) … covers row r. -/
theorem final (c : Dev nD) : (dats m 0 c).arrAt 3 cfg0.N = G m c :=
  (dats m 0 c).arrAt_eq_of_cover 3 (G m c) (fun t _ => flushed_eq m c t) fun i => by
    have hN : cfg0.N = 32 := N_0
    have hi0 : (i 0).val < 16384 := (i 0).isLt
    have hi1 : (i 1).val < 16 := (i 1).isLt
    have hi2 : (i 2).val < 512 := (i 2).isLt
    have hlt : (i 0).val / 512 < cfg0.N := by rw [hN]; omega
    obtain ⟨-, -, -, -, -, -, -, e0, e1, e2⟩ := idx_facts ⟨(i 0).val / 512, hlt⟩
    refine ⟨⟨(i 0).val / 512, hlt⟩, flush0_3 _, ?_⟩
    rw [mem_blk]
    intro a
    match a with
    | ⟨0, _⟩ =>
      show win0_3.index ⟨(i 0).val / 512, hlt⟩ (0 : Fin 3) * 512 ≤ (i 0).val ∧ (i 0).val < win0_3.index ⟨(i 0).val / 512, hlt⟩ (0 : Fin 3) * 512 + 512
      rw [e0]; show (i 0).val / 512 * 512 ≤ (i 0).val ∧ (i 0).val < (i 0).val / 512 * 512 + 512; omega
    | ⟨1, _⟩ =>
      show win0_3.index ⟨(i 0).val / 512, hlt⟩ (1 : Fin 3) * 16 ≤ (i 1).val ∧ (i 1).val < win0_3.index ⟨(i 0).val / 512, hlt⟩ (1 : Fin 3) * 16 + 16
      rw [e1]; omega
    | ⟨2, _⟩ =>
      show win0_3.index ⟨(i 0).val / 512, hlt⟩ (2 : Fin 3) * 512 ≤ (i 2).val ∧ (i 2).val < win0_3.index ⟨(i 0).val / 512, hlt⟩ (2 : Fin 3) * 512 + 512
      rw [e2]; omega

/-! ## The run, read -/

/-- Every weakly fair execution of the idealized kernel's @main terminates with the result array at `G` of the arguments
    as launched, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Rows

end
-- ==== Proof.RefOps.lean ====
/- The reference's @main as lists of its 215 host operations, each call of the leaky unit written out over that
   call's own buffers (its zero, the comparison with it, the slope's copy and splat, the product, the select). The same
   operations are listed twice: window by window as @main is printed (three windows), to state that @main IS the line;
   and cut by what they compute — the scaling of the rows (13 operations), the eight dense layers (25 each: the weight
   slice scaled, the product over the last axes, the bias slice scaled and repeated, the sum, the leaky unit, the gain),
   the two final copies along the new axis — to read the line's result one layer at a time. -/
import proofs.«178076_j79817672229324_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of @main's printed window 0, in order. -/
abbrev win0 : List (HloOp τ sig (Elt F)) :=
  [ binary main_arg0 main_arg0 main_v0 (mulf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v0 main_cst main_v1 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44000000#32),
    unary main_cst_0 main_v3 (broadcastInDim S16384x1 ![] bcast_S_S16384x1 : (⟨S_, .f32⟩ : BufTy).Contents (Elt F) → (⟨S16384x1, .f32⟩ : BufTy).Contents (Elt F)),
    binary main_v2 main_v3 main_v4 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x322BCC77#32),
    unary main_cst_1 main_v5 (broadcastInDim S16384x1 ![] bcast_S_S16384x1 : (⟨S_, .f32⟩ : BufTy).Contents (Elt F) → (⟨S16384x1, .f32⟩ : BufTy).Contents (Elt F)),
    binary main_v4 main_v5 main_v6 (addf : (⟨S16384x1, .f32⟩ : BufTy).Contents (Elt F) → (⟨S16384x1, .f32⟩ : BufTy).Contents (Elt F) → (⟨S16384x1, .f32⟩ : BufTy).Contents (Elt F)),
    unary main_v6 main_v7 (Host.rsqrt : (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_arg0 main_v8 main_v9 (mulf : (⟨S16384x512, .f32⟩ : BufTy).Contents (Elt F) → (⟨S16384x512, .f32⟩ : BufTy).Contents (Elt F) → (⟨S16384x512, .f32⟩ : BufTy).Contents (Elt F)),
    unary main_arg1 main_v10 ((extractStridedSlice S1x512x512 ![0, 0, 0] · slices_S8x512x512_S1x512x512_0_0_0) : (⟨S8x512x512, .f32⟩ : BufTy).Contents (Elt F) → (⟨S1x512x512, .f32⟩ : BufTy).Contents (Elt F)),
    reshape main_v10 main_v11 rfl shapeCasts_S1x512x512_S512x512,
    nullary main_cst_2 (constant S_ .f32 0x39E7B46A#32),
    unary main_cst_2 main_v12 (broadcastInDim S512x512 ![] bcast_S_S512x512 : (⟨S_, .f32⟩ : BufTy).Contents (Elt F) → (⟨S512x512, .f32⟩ : BufTy).Contents (Elt F)),
    binary main_v11 main_v12 main_v13 (mulf : (⟨S512x512, .f32⟩ : BufTy).Contents (Elt F) → (⟨S512x512, .f32⟩ : BufTy).Contents (Elt F) → (⟨S512x512, .f32⟩ : BufTy).Contents (Elt F)),
    binary main_v9 main_v13 main_v14 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v15 ((extractStridedSlice S1x512 ![0, 0] · slices_S8x512_S1x512_0_0) : (⟨S8x512, .f32⟩ : BufTy).Contents (Elt F) → (⟨S1x512, .f32⟩ : BufTy).Contents (Elt F)),
    reshape main_v15 main_v16 rfl shapeCasts_S1x512_S512,
    nullary main_cst_3 (constant S_ .f32 0x3C23D70A#32),
    unary main_cst_3 main_v17 (broadcastInDim S512 ![] bcast_S_S512 : (⟨S_, .f32⟩ : BufTy).Contents (Elt F) → (⟨S512, .f32⟩ : BufTy).Contents (Elt F)),
    binary main_v16 main_v17 main_v18 (mulf : (⟨S512, .f32⟩ : BufTy).Contents (Elt F) → (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S16384x512 ![0, 1] bcast_S1x512_S16384x512_0_1 : (⟨S1x512, .f32⟩ : BufTy).Contents (Elt F) → (⟨S16384x512, .f32⟩ : BufTy).Contents (Elt F)),
    binary main_v14 main_v20 main_v21 (addf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S16384x512 ![] bcast_S_S16384x512),
    TRef.binary (.of main_v21) main_call0.v0 main_call0.v1 (cmpf .oge),
    TRef.unary (.of main_cst_4) main_call0.v2 id,
    TRef.unary main_call0.v2 main_call0.v3 (broadcastInDim S16384x512 ![] bcast_S_S16384x512),
    TRef.binary main_call0.v3 (.of main_v21) main_call0.v4 mulf,
    TRef.ternary main_call0.v1 (.of main_v21) main_call0.v4 main_call0.call0.v0 select,
    nullary main_cst_5 (constant S_ .f32 0x3FB504F3#32),
    unary main_cst_5 main_v23 (broadcastInDim S16384x512 ![] bcast_S_S16384x512 : (⟨S_, .f32⟩ : BufTy).Contents (Elt F) → (⟨S16384x512, .f32⟩ : BufTy).Contents (Elt F)),
    binary main_v22 main_v23 main_v24 (mulf : (⟨S16384x512, .f32⟩ : BufTy).Contents (Elt F) → (⟨S16384x512, .f32⟩ : BufTy).Contents (Elt F) → (⟨S16384x512, .f32⟩ : BufTy).Contents (Elt F)),
    unary main_arg1 main_v25 ((extractStridedSlice S1x512x512 ![1, 0, 0] · slices_S8x512x512_S1x512x512_1_0_0) : (⟨S8x512x512, .f32⟩ : BufTy).Contents (Elt F) → (⟨S1x512x512, .f32⟩ : BufTy).Contents (Elt F)),
    reshape main_v25 main_v26 rfl shapeCasts_S1x512x512_S512x512,
    nullary main_cst_6 (constant S_ .f32 0x39E7B46A#32),
    unary main_cst_6 main_v27 (broadcastInDim S512x512 ![] bcast_S_S512x512 : (⟨S_, .f32⟩ : BufTy).Contents (Elt F) → (⟨S512x512, .f32⟩ : BufTy).Contents (Elt F)),
    binary main_v26 main_v27 main_v28 (mulf : (⟨S512x512, .f32⟩ : BufTy).Contents (Elt F) → (⟨S512x512, .f32⟩ : BufTy).Contents (Elt F) → (⟨S512x512, .f32⟩ : BufTy).Contents (Elt F)),
    binary main_v24 main_v28 main_v29 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v30 ((extractStridedSlice S1x512 ![1, 0] · slices_S8x512_S1x512_1_0) : (⟨S8x512, .f32⟩ : BufTy).Contents (Elt F) → (⟨S1x512, .f32⟩ : BufTy).Contents (Elt F)),
    reshape main_v30 main_v31 rfl shapeCasts_S1x512_S512,
    nullary main_cst_7 (constant S_ .f32 0x3C23D70A#32),
    unary main_cst_7 main_v32 (broadcastInDim S512 ![] bcast_S_S512 : (⟨S_, .f32⟩ : BufTy).Contents (Elt F) → (⟨S512, .f32⟩ : BufTy).Contents (Elt F)),
    binary main_v31 main_v32 main_v33 (mulf : (⟨S512, .f32⟩ : BufTy).Contents (Elt F) → (⟨S512, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    unary main_v34 main_v35 (broadcastInDim S16384x512 ![0, 1] bcast_S1x512_S16384x512_0_1 : (⟨S1x512, .f32⟩ : BufTy).Contents (Elt F) → (⟨S16384x512, .f32⟩ : BufTy).Contents (Elt F)),
    binary main_v29 main_v35 main_v36 (addf : (⟨S16384x512, .f32⟩ : BufTy).Contents (Elt F) → (⟨S16384x512, .f32⟩ : BufTy).Contents (Elt F) → (⟨S16384x512, .f32⟩ : BufTy).Contents (Elt F)),
    nullary main_cst_8 (constant S_ .f32 0x3E4CCCCD#32),
    TRef.nullary main_call1.cst (constant S_ .f32 0x00000000#32),
    TRef.unary main_call1.cst main_call1.v0 (broadcastInDim S16384x512 ![] bcast_S_S16384x512),
    TRef.binary (.of main_v36) main_call1.v0 main_call1.v1 (cmpf .oge),
    TRef.unary (.of main_cst_8) main_call1.v2 id,
    TRef.unary main_call1.v2 main_call1.v3 (broadcastInDim S16384x512 ![] bcast_S_S16384x512),
    TRef.binary main_call1.v3 (.of main_v36) main_call1.v4 mulf,
    TRef.ternary main_call1.v1 (.of main_v36) main_call1.v4 main_call1.call0.v0 select,
    nullary main_cst_9 (constant S_ .f32 0x3FB504F3#32),
    unary main_cst_9 main_v38 (broadcastInDim S16384x512 ![] bcast_S_S16384x512 : (⟨S_, .f32⟩ : BufTy).Contents (Elt F) → (⟨S16384x512, .f32⟩ : BufTy).Contents (Elt F)),
    binary main_v37 main_v38 main_v39 (mulf : (⟨S16384x512, .f32⟩ : BufTy).Contents (Elt F) → (⟨S16384x512, .f32⟩ : BufTy).Contents (Elt F) → (⟨S16384x512, .f32⟩ : BufTy).Contents (Elt F)),
    unary main_arg1 main_v40 ((extractStridedSlice S1x512x512 ![2, 0, 0] · slices_S8x512x512_S1x512x512_2_0_0) : (⟨S8x512x512, .f32⟩ : BufTy).Contents (Elt F) → (⟨S1x512x512, .f32⟩ : BufTy).Contents (Elt F)),
    reshape main_v40 main_v41 rfl shapeCasts_S1x512x512_S512x512,
    nullary main_cst_10 (constant S_ .f32 0x39E7B46A#32),
    unary main_cst_10 main_v42 (broadcastInDim S512x512 ![] bcast_S_S512x512 : (⟨S_, .f32⟩ : BufTy).Contents (Elt F) → (⟨S512x512, .f32⟩ : BufTy).Contents (Elt F)),
    binary main_v41 main_v42 main_v43 (mulf : (⟨S512x512, .f32⟩ : BufTy).Contents (Elt F) → (⟨S512x512, .f32⟩ : BufTy).Contents (Elt F) → (⟨S512x512, .f32⟩ : BufTy).Contents (Elt F)),
    binary main_v39 main_v43 main_v44 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v45 ((extractStridedSlice S1x512 ![2, 0] · slices_S8x512_S1x512_2_0) : (⟨S8x512, .f32⟩ : BufTy).Contents (Elt F) → (⟨S1x512, .f32⟩ : BufTy).Contents (Elt F)),
    reshape main_v45 main_v46 rfl shapeCasts_S1x512_S512,
    nullary main_cst_11 (constant S_ .f32 0x3C23D70A#32) ]

/-- The operations of @main's printed window 1, in order. -/
abbrev win1 : List (HloOp τ sig (Elt F)) :=
  [ unary main_cst_11 main_v47 (broadcastInDim S512 ![] bcast_S_S512 : (⟨S_, .f32⟩ : BufTy).Contents (Elt F) → (⟨S512, .f32⟩ : BufTy).Contents (Elt F)),
    binary main_v46 main_v47 main_v48 (mulf : (⟨S512, .f32⟩ : BufTy).Contents (Elt F) → (⟨S512, .f32⟩ : BufTy).Contents (Elt F) → (⟨S512, .f32⟩ : BufTy).Contents (Elt F)),
    unary main_v48 main_v49 (broadcastInDim S1x512 ![1] bcast_S512_S1x512_1 : (⟨S512, .f32⟩ : BufTy).Contents (Elt F) → (⟨S1x512, .f32⟩ : BufTy).Contents (Elt F)),
    unary main_v49 main_v50 (broadcastInDim S16384x512 ![0, 1] bcast_S1x512_S16384x512_0_1 : (⟨S1x512, .f32⟩ : BufTy).Contents (Elt F) → (⟨S16384x512, .f32⟩ : BufTy).Contents (Elt F)),
    binary main_v44 main_v50 main_v51 (addf : (⟨S16384x512, .f32⟩ : BufTy).Contents (Elt F) → (⟨S16384x512, .f32⟩ : BufTy).Contents (Elt F) → (⟨S16384x512, .f32⟩ : BufTy).Contents (Elt F)),
    nullary main_cst_12 (constant S_ .f32 0x3E4CCCCD#32),
    TRef.nullary main_call2.cst (constant S_ .f32 0x00000000#32),
    TRef.unary main_call2.cst main_call2.v0 (broadcastInDim S16384x512 ![] bcast_S_S16384x512),
    TRef.binary (.of main_v51) main_call2.v0 main_call2.v1 (cmpf .oge),
    TRef.unary (.of main_cst_12) main_call2.v2 id,
    TRef.unary main_call2.v2 main_call2.v3 (broadcastInDim S16384x512 ![] bcast_S_S16384x512),
    TRef.binary main_call2.v3 (.of main_v51) main_call2.v4 mulf,
    TRef.ternary main_call2.v1 (.of main_v51) main_call2.v4 main_call2.call0.v0 select,
    nullary main_cst_13 (constant S_ .f32 0x3FB504F3#32),
    unary main_cst_13 main_v53 (broadcastInDim S16384x512 ![] bcast_S_S16384x512 : (⟨S_, .f32⟩ : BufTy).Contents (Elt F) → (⟨S16384x512, .f32⟩ : BufTy).Contents (Elt F)),
    binary main_v52 main_v53 main_v54 (mulf : (⟨S16384x512, .f32⟩ : BufTy).Contents (Elt F) → (⟨S16384x512, .f32⟩ : BufTy).Contents (Elt F) → (⟨S16384x512, .f32⟩ : BufTy).Contents (Elt F)),
    unary main_arg1 main_v55 ((extractStridedSlice S1x512x512 ![3, 0, 0] · slices_S8x512x512_S1x512x512_3_0_0) : (⟨S8x512x512, .f32⟩ : BufTy).Contents (Elt F) → (⟨S1x512x512, .f32⟩ : BufTy).Contents (Elt F)),
    reshape main_v55 main_v56 rfl shapeCasts_S1x512x512_S512x512,
    nullary main_cst_14 (constant S_ .f32 0x39E7B46A#32),
    unary main_cst_14 main_v57 (broadcastInDim S512x512 ![] bcast_S_S512x512 : (⟨S_, .f32⟩ : BufTy).Contents (Elt F) → (⟨S512x512, .f32⟩ : BufTy).Contents (Elt F)),
    binary main_v56 main_v57 main_v58 (mulf : (⟨S512x512, .f32⟩ : BufTy).Contents (Elt F) → (⟨S512x512, .f32⟩ : BufTy).Contents (Elt F) → (⟨S512x512, .f32⟩ : BufTy).Contents (Elt F)),
    binary main_v54 main_v58 main_v59 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v60 ((extractStridedSlice S1x512 ![3, 0] · slices_S8x512_S1x512_3_0) : (⟨S8x512, .f32⟩ : BufTy).Contents (Elt F) → (⟨S1x512, .f32⟩ : BufTy).Contents (Elt F)),
    reshape main_v60 main_v61 rfl shapeCasts_S1x512_S512,
    nullary main_cst_15 (constant S_ .f32 0x3C23D70A#32),
    unary main_cst_15 main_v62 (broadcastInDim S512 ![] bcast_S_S512 : (⟨S_, .f32⟩ : BufTy).Contents (Elt F) → (⟨S512, .f32⟩ : BufTy).Contents (Elt F)),
    binary main_v61 main_v62 main_v63 (mulf : (⟨S512, .f32⟩ : BufTy).Contents (Elt F) → (⟨S512, .f32⟩ : BufTy).Contents (Elt F) → (⟨S512, .f32⟩ : BufTy).Contents (Elt F)),
    unary main_v63 main_v64 (broadcastInDim S1x512 ![1] bcast_S512_S1x512_1 : (⟨S512, .f32⟩ : BufTy).Contents (Elt F) → (⟨S1x512, .f32⟩ : BufTy).Contents (Elt F)),
    unary main_v64 main_v65 (broadcastInDim S16384x512 ![0, 1] bcast_S1x512_S16384x512_0_1 : (⟨S1x512, .f32⟩ : BufTy).Contents (Elt F) → (⟨S16384x512, .f32⟩ : BufTy).Contents (Elt F)),
    binary main_v59 main_v65 main_v66 (addf : (⟨S16384x512, .f32⟩ : BufTy).Contents (Elt F) → (⟨S16384x512, .f32⟩ : BufTy).Contents (Elt F) → (⟨S16384x512, .f32⟩ : BufTy).Contents (Elt F)),
    nullary main_cst_16 (constant S_ .f32 0x3E4CCCCD#32),
    TRef.nullary main_call3.cst (constant S_ .f32 0x00000000#32),
    TRef.unary main_call3.cst main_call3.v0 (broadcastInDim S16384x512 ![] bcast_S_S16384x512),
    TRef.binary (.of main_v66) main_call3.v0 main_call3.v1 (cmpf .oge),
    TRef.unary (.of main_cst_16) main_call3.v2 id,
    TRef.unary main_call3.v2 main_call3.v3 (broadcastInDim S16384x512 ![] bcast_S_S16384x512),
    TRef.binary main_call3.v3 (.of main_v66) main_call3.v4 mulf,
    TRef.ternary main_call3.v1 (.of main_v66) main_call3.v4 main_call3.call0.v0 select,
    nullary main_cst_17 (constant S_ .f32 0x3FB504F3#32),
    unary main_cst_17 main_v68 (broadcastInDim S16384x512 ![] bcast_S_S16384x512 : (⟨S_, .f32⟩ : BufTy).Contents (Elt F) → (⟨S16384x512, .f32⟩ : BufTy).Contents (Elt F)),
    binary main_v67 main_v68 main_v69 (mulf : (⟨S16384x512, .f32⟩ : BufTy).Contents (Elt F) → (⟨S16384x512, .f32⟩ : BufTy).Contents (Elt F) → (⟨S16384x512, .f32⟩ : BufTy).Contents (Elt F)),
    unary main_arg1 main_v70 ((extractStridedSlice S1x512x512 ![4, 0, 0] · slices_S8x512x512_S1x512x512_4_0_0) : (⟨S8x512x512, .f32⟩ : BufTy).Contents (Elt F) → (⟨S1x512x512, .f32⟩ : BufTy).Contents (Elt F)),
    reshape main_v70 main_v71 rfl shapeCasts_S1x512x512_S512x512,
    nullary main_cst_18 (constant S_ .f32 0x39E7B46A#32),
    unary main_cst_18 main_v72 (broadcastInDim S512x512 ![] bcast_S_S512x512 : (⟨S_, .f32⟩ : BufTy).Contents (Elt F) → (⟨S512x512, .f32⟩ : BufTy).Contents (Elt F)),
    binary main_v71 main_v72 main_v73 (mulf : (⟨S512x512, .f32⟩ : BufTy).Contents (Elt F) → (⟨S512x512, .f32⟩ : BufTy).Contents (Elt F) → (⟨S512x512, .f32⟩ : BufTy).Contents (Elt F)),
    binary main_v69 main_v73 main_v74 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v75 ((extractStridedSlice S1x512 ![4, 0] · slices_S8x512_S1x512_4_0) : (⟨S8x512, .f32⟩ : BufTy).Contents (Elt F) → (⟨S1x512, .f32⟩ : BufTy).Contents (Elt F)),
    reshape main_v75 main_v76 rfl shapeCasts_S1x512_S512,
    nullary main_cst_19 (constant S_ .f32 0x3C23D70A#32),
    unary main_cst_19 main_v77 (broadcastInDim S512 ![] bcast_S_S512 : (⟨S_, .f32⟩ : BufTy).Contents (Elt F) → (⟨S512, .f32⟩ : BufTy).Contents (Elt F)),
    binary main_v76 main_v77 main_v78 (mulf : (⟨S512, .f32⟩ : BufTy).Contents (Elt F) → (⟨S512, .f32⟩ : BufTy).Contents (Elt F) → (⟨S512, .f32⟩ : BufTy).Contents (Elt F)),
    unary main_v78 main_v79 (broadcastInDim S1x512 ![1] bcast_S512_S1x512_1 : (⟨S512, .f32⟩ : BufTy).Contents (Elt F) → (⟨S1x512, .f32⟩ : BufTy).Contents (Elt F)),
    unary main_v79 main_v80 (broadcastInDim S16384x512 ![0, 1] bcast_S1x512_S16384x512_0_1 : (⟨S1x512, .f32⟩ : BufTy).Contents (Elt F) → (⟨S16384x512, .f32⟩ : BufTy).Contents (Elt F)),
    binary main_v74 main_v80 main_v81 (addf : (⟨S16384x512, .f32⟩ : BufTy).Contents (Elt F) → (⟨S16384x512, .f32⟩ : BufTy).Contents (Elt F) → (⟨S16384x512, .f32⟩ : BufTy).Contents (Elt F)),
    nullary main_cst_20 (constant S_ .f32 0x3E4CCCCD#32),
    TRef.nullary main_call4.cst (constant S_ .f32 0x00000000#32),
    TRef.unary main_call4.cst main_call4.v0 (broadcastInDim S16384x512 ![] bcast_S_S16384x512),
    TRef.binary (.of main_v81) main_call4.v0 main_call4.v1 (cmpf .oge),
    TRef.unary (.of main_cst_20) main_call4.v2 id,
    TRef.unary main_call4.v2 main_call4.v3 (broadcastInDim S16384x512 ![] bcast_S_S16384x512),
    TRef.binary main_call4.v3 (.of main_v81) main_call4.v4 mulf,
    TRef.ternary main_call4.v1 (.of main_v81) main_call4.v4 main_call4.call0.v0 select,
    nullary main_cst_21 (constant S_ .f32 0x3FB504F3#32),
    unary main_cst_21 main_v83 (broadcastInDim S16384x512 ![] bcast_S_S16384x512 : (⟨S_, .f32⟩ : BufTy).Contents (Elt F) → (⟨S16384x512, .f32⟩ : BufTy).Contents (Elt F)),
    binary main_v82 main_v83 main_v84 (mulf : (⟨S16384x512, .f32⟩ : BufTy).Contents (Elt F) → (⟨S16384x512, .f32⟩ : BufTy).Contents (Elt F) → (⟨S16384x512, .f32⟩ : BufTy).Contents (Elt F)),
    unary main_arg1 main_v85 ((extractStridedSlice S1x512x512 ![5, 0, 0] · slices_S8x512x512_S1x512x512_5_0_0) : (⟨S8x512x512, .f32⟩ : BufTy).Contents (Elt F) → (⟨S1x512x512, .f32⟩ : BufTy).Contents (Elt F)),
    reshape main_v85 main_v86 rfl shapeCasts_S1x512x512_S512x512,
    nullary main_cst_22 (constant S_ .f32 0x39E7B46A#32),
    unary main_cst_22 main_v87 (broadcastInDim S512x512 ![] bcast_S_S512x512 : (⟨S_, .f32⟩ : BufTy).Contents (Elt F) → (⟨S512x512, .f32⟩ : BufTy).Contents (Elt F)),
    binary main_v86 main_v87 main_v88 (mulf : (⟨S512x512, .f32⟩ : BufTy).Contents (Elt F) → (⟨S512x512, .f32⟩ : BufTy).Contents (Elt F) → (⟨S512x512, .f32⟩ : BufTy).Contents (Elt F)),
    binary main_v84 main_v88 main_v89 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v90 ((extractStridedSlice S1x512 ![5, 0] · slices_S8x512_S1x512_5_0) : (⟨S8x512, .f32⟩ : BufTy).Contents (Elt F) → (⟨S1x512, .f32⟩ : BufTy).Contents (Elt F)),
    reshape main_v90 main_v91 rfl shapeCasts_S1x512_S512,
    nullary main_cst_23 (constant S_ .f32 0x3C23D70A#32),
    unary main_cst_23 main_v92 (broadcastInDim S512 ![] bcast_S_S512 : (⟨S_, .f32⟩ : BufTy).Contents (Elt F) → (⟨S512, .f32⟩ : BufTy).Contents (Elt F)),
    binary main_v91 main_v92 main_v93 (mulf : (⟨S512, .f32⟩ : BufTy).Contents (Elt F) → (⟨S512, .f32⟩ : BufTy).Contents (Elt F) → (⟨S512, .f32⟩ : BufTy).Contents (Elt F)),
    unary main_v93 main_v94 (broadcastInDim S1x512 ![1] bcast_S512_S1x512_1 : (⟨S512, .f32⟩ : BufTy).Contents (Elt F) → (⟨S1x512, .f32⟩ : BufTy).Contents (Elt F)) ]

/-- The operations of @main's printed window 2, in order. -/
abbrev win2 : List (HloOp τ sig (Elt F)) :=
  [ unary main_v94 main_v95 (broadcastInDim S16384x512 ![0, 1] bcast_S1x512_S16384x512_0_1 : (⟨S1x512, .f32⟩ : BufTy).Contents (Elt F) → (⟨S16384x512, .f32⟩ : BufTy).Contents (Elt F)),
    binary main_v89 main_v95 main_v96 (addf : (⟨S16384x512, .f32⟩ : BufTy).Contents (Elt F) → (⟨S16384x512, .f32⟩ : BufTy).Contents (Elt F) → (⟨S16384x512, .f32⟩ : BufTy).Contents (Elt F)),
    nullary main_cst_24 (constant S_ .f32 0x3E4CCCCD#32),
    TRef.nullary main_call5.cst (constant S_ .f32 0x00000000#32),
    TRef.unary main_call5.cst main_call5.v0 (broadcastInDim S16384x512 ![] bcast_S_S16384x512),
    TRef.binary (.of main_v96) main_call5.v0 main_call5.v1 (cmpf .oge),
    TRef.unary (.of main_cst_24) main_call5.v2 id,
    TRef.unary main_call5.v2 main_call5.v3 (broadcastInDim S16384x512 ![] bcast_S_S16384x512),
    TRef.binary main_call5.v3 (.of main_v96) main_call5.v4 mulf,
    TRef.ternary main_call5.v1 (.of main_v96) main_call5.v4 main_call5.call0.v0 select,
    nullary main_cst_25 (constant S_ .f32 0x3FB504F3#32),
    unary main_cst_25 main_v98 (broadcastInDim S16384x512 ![] bcast_S_S16384x512 : (⟨S_, .f32⟩ : BufTy).Contents (Elt F) → (⟨S16384x512, .f32⟩ : BufTy).Contents (Elt F)),
    binary main_v97 main_v98 main_v99 (mulf : (⟨S16384x512, .f32⟩ : BufTy).Contents (Elt F) → (⟨S16384x512, .f32⟩ : BufTy).Contents (Elt F) → (⟨S16384x512, .f32⟩ : BufTy).Contents (Elt F)),
    unary main_arg1 main_v100 ((extractStridedSlice S1x512x512 ![6, 0, 0] · slices_S8x512x512_S1x512x512_6_0_0) : (⟨S8x512x512, .f32⟩ : BufTy).Contents (Elt F) → (⟨S1x512x512, .f32⟩ : BufTy).Contents (Elt F)),
    reshape main_v100 main_v101 rfl shapeCasts_S1x512x512_S512x512,
    nullary main_cst_26 (constant S_ .f32 0x39E7B46A#32),
    unary main_cst_26 main_v102 (broadcastInDim S512x512 ![] bcast_S_S512x512 : (⟨S_, .f32⟩ : BufTy).Contents (Elt F) → (⟨S512x512, .f32⟩ : BufTy).Contents (Elt F)),
    binary main_v101 main_v102 main_v103 (mulf : (⟨S512x512, .f32⟩ : BufTy).Contents (Elt F) → (⟨S512x512, .f32⟩ : BufTy).Contents (Elt F) → (⟨S512x512, .f32⟩ : BufTy).Contents (Elt F)),
    binary main_v99 main_v103 main_v104 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v105 ((extractStridedSlice S1x512 ![6, 0] · slices_S8x512_S1x512_6_0) : (⟨S8x512, .f32⟩ : BufTy).Contents (Elt F) → (⟨S1x512, .f32⟩ : BufTy).Contents (Elt F)),
    reshape main_v105 main_v106 rfl shapeCasts_S1x512_S512,
    nullary main_cst_27 (constant S_ .f32 0x3C23D70A#32),
    unary main_cst_27 main_v107 (broadcastInDim S512 ![] bcast_S_S512 : (⟨S_, .f32⟩ : BufTy).Contents (Elt F) → (⟨S512, .f32⟩ : BufTy).Contents (Elt F)),
    binary main_v106 main_v107 main_v108 (mulf : (⟨S512, .f32⟩ : BufTy).Contents (Elt F) → (⟨S512, .f32⟩ : BufTy).Contents (Elt F) → (⟨S512, .f32⟩ : BufTy).Contents (Elt F)),
    unary main_v108 main_v109 (broadcastInDim S1x512 ![1] bcast_S512_S1x512_1 : (⟨S512, .f32⟩ : BufTy).Contents (Elt F) → (⟨S1x512, .f32⟩ : BufTy).Contents (Elt F)),
    unary main_v109 main_v110 (broadcastInDim S16384x512 ![0, 1] bcast_S1x512_S16384x512_0_1 : (⟨S1x512, .f32⟩ : BufTy).Contents (Elt F) → (⟨S16384x512, .f32⟩ : BufTy).Contents (Elt F)),
    binary main_v104 main_v110 main_v111 (addf : (⟨S16384x512, .f32⟩ : BufTy).Contents (Elt F) → (⟨S16384x512, .f32⟩ : BufTy).Contents (Elt F) → (⟨S16384x512, .f32⟩ : BufTy).Contents (Elt F)),
    nullary main_cst_28 (constant S_ .f32 0x3E4CCCCD#32),
    TRef.nullary main_call6.cst (constant S_ .f32 0x00000000#32),
    TRef.unary main_call6.cst main_call6.v0 (broadcastInDim S16384x512 ![] bcast_S_S16384x512),
    TRef.binary (.of main_v111) main_call6.v0 main_call6.v1 (cmpf .oge),
    TRef.unary (.of main_cst_28) main_call6.v2 id,
    TRef.unary main_call6.v2 main_call6.v3 (broadcastInDim S16384x512 ![] bcast_S_S16384x512),
    TRef.binary main_call6.v3 (.of main_v111) main_call6.v4 mulf,
    TRef.ternary main_call6.v1 (.of main_v111) main_call6.v4 main_call6.call0.v0 select,
    nullary main_cst_29 (constant S_ .f32 0x3FB504F3#32),
    unary main_cst_29 main_v113 (broadcastInDim S16384x512 ![] bcast_S_S16384x512 : (⟨S_, .f32⟩ : BufTy).Contents (Elt F) → (⟨S16384x512, .f32⟩ : BufTy).Contents (Elt F)),
    binary main_v112 main_v113 main_v114 (mulf : (⟨S16384x512, .f32⟩ : BufTy).Contents (Elt F) → (⟨S16384x512, .f32⟩ : BufTy).Contents (Elt F) → (⟨S16384x512, .f32⟩ : BufTy).Contents (Elt F)),
    unary main_arg1 main_v115 ((extractStridedSlice S1x512x512 ![7, 0, 0] · slices_S8x512x512_S1x512x512_7_0_0) : (⟨S8x512x512, .f32⟩ : BufTy).Contents (Elt F) → (⟨S1x512x512, .f32⟩ : BufTy).Contents (Elt F)),
    reshape main_v115 main_v116 rfl shapeCasts_S1x512x512_S512x512,
    nullary main_cst_30 (constant S_ .f32 0x39E7B46A#32),
    unary main_cst_30 main_v117 (broadcastInDim S512x512 ![] bcast_S_S512x512 : (⟨S_, .f32⟩ : BufTy).Contents (Elt F) → (⟨S512x512, .f32⟩ : BufTy).Contents (Elt F)),
    binary main_v116 main_v117 main_v118 (mulf : (⟨S512x512, .f32⟩ : BufTy).Contents (Elt F) → (⟨S512x512, .f32⟩ : BufTy).Contents (Elt F) → (⟨S512x512, .f32⟩ : BufTy).Contents (Elt F)),
    binary main_v114 main_v118 main_v119 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v120 ((extractStridedSlice S1x512 ![7, 0] · slices_S8x512_S1x512_7_0) : (⟨S8x512, .f32⟩ : BufTy).Contents (Elt F) → (⟨S1x512, .f32⟩ : BufTy).Contents (Elt F)),
    reshape main_v120 main_v121 rfl shapeCasts_S1x512_S512,
    nullary main_cst_31 (constant S_ .f32 0x3C23D70A#32),
    unary main_cst_31 main_v122 (broadcastInDim S512 ![] bcast_S_S512 : (⟨S_, .f32⟩ : BufTy).Contents (Elt F) → (⟨S512, .f32⟩ : BufTy).Contents (Elt F)),
    binary main_v121 main_v122 main_v123 (mulf : (⟨S512, .f32⟩ : BufTy).Contents (Elt F) → (⟨S512, .f32⟩ : BufTy).Contents (Elt F) → (⟨S512, .f32⟩ : BufTy).Contents (Elt F)),
    unary main_v123 main_v124 (broadcastInDim S1x512 ![1] bcast_S512_S1x512_1 : (⟨S512, .f32⟩ : BufTy).Contents (Elt F) → (⟨S1x512, .f32⟩ : BufTy).Contents (Elt F)),
    unary main_v124 main_v125 (broadcastInDim S16384x512 ![0, 1] bcast_S1x512_S16384x512_0_1 : (⟨S1x512, .f32⟩ : BufTy).Contents (Elt F) → (⟨S16384x512, .f32⟩ : BufTy).Contents (Elt F)),
    binary main_v119 main_v125 main_v126 (addf : (⟨S16384x512, .f32⟩ : BufTy).Contents (Elt F) → (⟨S16384x512, .f32⟩ : BufTy).Contents (Elt F) → (⟨S16384x512, .f32⟩ : BufTy).Contents (Elt F)),
    nullary main_cst_32 (constant S_ .f32 0x3E4CCCCD#32),
    TRef.nullary main_call7.cst (constant S_ .f32 0x00000000#32),
    TRef.unary main_call7.cst main_call7.v0 (broadcastInDim S16384x512 ![] bcast_S_S16384x512),
    TRef.binary (.of main_v126) main_call7.v0 main_call7.v1 (cmpf .oge),
    TRef.unary (.of main_cst_32) main_call7.v2 id,
    TRef.unary main_call7.v2 main_call7.v3 (broadcastInDim S16384x512 ![] bcast_S_S16384x512),
    TRef.binary main_call7.v3 (.of main_v126) main_call7.v4 mulf,
    TRef.ternary main_call7.v1 (.of main_v126) main_call7.v4 main_call7.call0.v0 select,
    nullary main_cst_33 (constant S_ .f32 0x3FB504F3#32),
    unary main_cst_33 main_v128 (broadcastInDim S16384x512 ![] bcast_S_S16384x512 : (⟨S_, .f32⟩ : BufTy).Contents (Elt F) → (⟨S16384x512, .f32⟩ : BufTy).Contents (Elt F)),
    binary main_v127 main_v128 main_v129 (mulf : (⟨S16384x512, .f32⟩ : BufTy).Contents (Elt F) → (⟨S16384x512, .f32⟩ : BufTy).Contents (Elt F) → (⟨S16384x512, .f32⟩ : BufTy).Contents (Elt F)),
    unary main_v129 main_v130 (broadcastInDim S16384x1x512 ![0, 2] bcast_S16384x512_S16384x1x512_0_2 : (⟨S16384x512, .f32⟩ : BufTy).Contents (Elt F) → (⟨S16384x1x512, .f32⟩ : BufTy).Contents (Elt F)),
    unary main_v130 main_v131 (broadcastInDim S16384x16x512 ![0, 1, 2] bcast_S16384x1x512_S16384x16x512_0_1_2 : (⟨S16384x1x512, .f32⟩ : BufTy).Contents (Elt F) → (⟨S16384x16x512, .f32⟩ : BufTy).Contents (Elt F)) ]

/-- The stretch opsPre of the line. -/
abbrev opsPre : List (HloOp τ sig (Elt F)) :=
  [ binary main_arg0 main_arg0 main_v0 (mulf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v0 main_cst main_v1 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44000000#32),
    unary main_cst_0 main_v3 (broadcastInDim S16384x1 ![] bcast_S_S16384x1 : (⟨S_, .f32⟩ : BufTy).Contents (Elt F) → (⟨S16384x1, .f32⟩ : BufTy).Contents (Elt F)),
    binary main_v2 main_v3 main_v4 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x322BCC77#32),
    unary main_cst_1 main_v5 (broadcastInDim S16384x1 ![] bcast_S_S16384x1 : (⟨S_, .f32⟩ : BufTy).Contents (Elt F) → (⟨S16384x1, .f32⟩ : BufTy).Contents (Elt F)),
    binary main_v4 main_v5 main_v6 (addf : (⟨S16384x1, .f32⟩ : BufTy).Contents (Elt F) → (⟨S16384x1, .f32⟩ : BufTy).Contents (Elt F) → (⟨S16384x1, .f32⟩ : BufTy).Contents (Elt F)),
    unary main_v6 main_v7 (Host.rsqrt : (⟨S16384x1, .f32⟩ : BufTy).Contents (Elt F) → (⟨S16384x1, .f32⟩ : BufTy).Contents (Elt F)),
    unary main_v7 main_v8 (broadcastInDim S16384x512 ![0, 1] bcast_S16384x1_S16384x512_0_1 : (⟨S16384x1, .f32⟩ : BufTy).Contents (Elt F) → (⟨S16384x512, .f32⟩ : BufTy).Contents (Elt F)),
    binary main_arg0 main_v8 main_v9 (mulf : (⟨S16384x512, .f32⟩ : BufTy).Contents (Elt F) → (⟨S16384x512, .f32⟩ : BufTy).Contents (Elt F) → (⟨S16384x512, .f32⟩ : BufTy).Contents (Elt F)) ]

/-- The stretch opsL0 of the line. -/
abbrev opsL0 : List (HloOp τ sig (Elt F)) :=
  [ unary main_arg1 main_v10 ((extractStridedSlice S1x512x512 ![0, 0, 0] · slices_S8x512x512_S1x512x512_0_0_0) : (⟨S8x512x512, .f32⟩ : BufTy).Contents (Elt F) → (⟨S1x512x512, .f32⟩ : BufTy).Contents (Elt F)),
    reshape main_v10 main_v11 rfl shapeCasts_S1x512x512_S512x512,
    nullary main_cst_2 (constant S_ .f32 0x39E7B46A#32),
    unary main_cst_2 main_v12 (broadcastInDim S512x512 ![] bcast_S_S512x512 : (⟨S_, .f32⟩ : BufTy).Contents (Elt F) → (⟨S512x512, .f32⟩ : BufTy).Contents (Elt F)),
    binary main_v11 main_v12 main_v13 (mulf : (⟨S512x512, .f32⟩ : BufTy).Contents (Elt F) → (⟨S512x512, .f32⟩ : BufTy).Contents (Elt F) → (⟨S512x512, .f32⟩ : BufTy).Contents (Elt F)),
    binary main_v9 main_v13 main_v14 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v15 ((extractStridedSlice S1x512 ![0, 0] · slices_S8x512_S1x512_0_0) : (⟨S8x512, .f32⟩ : BufTy).Contents (Elt F) → (⟨S1x512, .f32⟩ : BufTy).Contents (Elt F)),
    reshape main_v15 main_v16 rfl shapeCasts_S1x512_S512,
    nullary main_cst_3 (constant S_ .f32 0x3C23D70A#32),
    unary main_cst_3 main_v17 (broadcastInDim S512 ![] bcast_S_S512 : (⟨S_, .f32⟩ : BufTy).Contents (Elt F) → (⟨S512, .f32⟩ : BufTy).Contents (Elt F)),
    binary main_v16 main_v17 main_v18 (mulf : (⟨S512, .f32⟩ : BufTy).Contents (Elt F) → (⟨S512, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S16384x512 ![0, 1] bcast_S1x512_S16384x512_0_1 : (⟨S1x512, .f32⟩ : BufTy).Contents (Elt F) → (⟨S16384x512, .f32⟩ : BufTy).Contents (Elt F)),
    binary main_v14 main_v20 main_v21 (addf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S16384x512 ![] bcast_S_S16384x512),
    TRef.binary (.of main_v21) main_call0.v0 main_call0.v1 (cmpf .oge),
    TRef.unary (.of main_cst_4) main_call0.v2 id,
    TRef.unary main_call0.v2 main_call0.v3 (broadcastInDim S16384x512 ![] bcast_S_S16384x512),
    TRef.binary main_call0.v3 (.of main_v21) main_call0.v4 mulf,
    TRef.ternary main_call0.v1 (.of main_v21) main_call0.v4 main_call0.call0.v0 select,
    nullary main_cst_5 (constant S_ .f32 0x3FB504F3#32),
    unary main_cst_5 main_v23 (broadcastInDim S16384x512 ![] bcast_S_S16384x512 : (⟨S_, .f32⟩ : BufTy).Contents (Elt F) → (⟨S16384x512, .f32⟩ : BufTy).Contents (Elt F)),
    binary main_v22 main_v23 main_v24 (mulf : (⟨S16384x512, .f32⟩ : BufTy).Contents (Elt F) → (⟨S16384x512, .f32⟩ : BufTy).Contents (Elt F) → (⟨S16384x512, .f32⟩ : BufTy).Contents (Elt F)) ]

/-- The stretch opsL1 of the line. -/
abbrev opsL1 : List (HloOp τ sig (Elt F)) :=
  [ unary main_arg1 main_v25 ((extractStridedSlice S1x512x512 ![1, 0, 0] · slices_S8x512x512_S1x512x512_1_0_0) : (⟨S8x512x512, .f32⟩ : BufTy).Contents (Elt F) → (⟨S1x512x512, .f32⟩ : BufTy).Contents (Elt F)),
    reshape main_v25 main_v26 rfl shapeCasts_S1x512x512_S512x512,
    nullary main_cst_6 (constant S_ .f32 0x39E7B46A#32),
    unary main_cst_6 main_v27 (broadcastInDim S512x512 ![] bcast_S_S512x512 : (⟨S_, .f32⟩ : BufTy).Contents (Elt F) → (⟨S512x512, .f32⟩ : BufTy).Contents (Elt F)),
    binary main_v26 main_v27 main_v28 (mulf : (⟨S512x512, .f32⟩ : BufTy).Contents (Elt F) → (⟨S512x512, .f32⟩ : BufTy).Contents (Elt F) → (⟨S512x512, .f32⟩ : BufTy).Contents (Elt F)),
    binary main_v24 main_v28 main_v29 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v30 ((extractStridedSlice S1x512 ![1, 0] · slices_S8x512_S1x512_1_0) : (⟨S8x512, .f32⟩ : BufTy).Contents (Elt F) → (⟨S1x512, .f32⟩ : BufTy).Contents (Elt F)),
    reshape main_v30 main_v31 rfl shapeCasts_S1x512_S512,
    nullary main_cst_7 (constant S_ .f32 0x3C23D70A#32),
    unary main_cst_7 main_v32 (broadcastInDim S512 ![] bcast_S_S512 : (⟨S_, .f32⟩ : BufTy).Contents (Elt F) → (⟨S512, .f32⟩ : BufTy).Contents (Elt F)),
    binary main_v31 main_v32 main_v33 (mulf : (⟨S512, .f32⟩ : BufTy).Contents (Elt F) → (⟨S512, .f32⟩ : BufTy).Contents (Elt F) → (⟨S512, .f32⟩ : BufTy).Contents (Elt F)),
    unary main_v33 main_v34 (broadcastInDim S1x512 ![1] bcast_S512_S1x512_1 : (⟨S512, .f32⟩ : BufTy).Contents (Elt F) → (⟨S1x512, .f32⟩ : BufTy).Contents (Elt F)),
    unary main_v34 main_v35 (broadcastInDim S16384x512 ![0, 1] bcast_S1x512_S16384x512_0_1 : (⟨S1x512, .f32⟩ : BufTy).Contents (Elt F) → (⟨S16384x512, .f32⟩ : BufTy).Contents (Elt F)),
    binary main_v29 main_v35 main_v36 (addf : (⟨S16384x512, .f32⟩ : BufTy).Contents (Elt F) → (⟨S16384x512, .f32⟩ : BufTy).Contents (Elt F) → (⟨S16384x512, .f32⟩ : BufTy).Contents (Elt F)),
    nullary main_cst_8 (constant S_ .f32 0x3E4CCCCD#32),
    TRef.nullary main_call1.cst (constant S_ .f32 0x00000000#32),
    TRef.unary main_call1.cst main_call1.v0 (broadcastInDim S16384x512 ![] bcast_S_S16384x512),
    TRef.binary (.of main_v36) main_call1.v0 main_call1.v1 (cmpf .oge),
    TRef.unary (.of main_cst_8) main_call1.v2 id,
    TRef.unary main_call1.v2 main_call1.v3 (broadcastInDim S16384x512 ![] bcast_S_S16384x512),
    TRef.binary main_call1.v3 (.of main_v36) main_call1.v4 mulf,
    TRef.ternary main_call1.v1 (.of main_v36) main_call1.v4 main_call1.call0.v0 select,
    nullary main_cst_9 (constant S_ .f32 0x3FB504F3#32),
    unary main_cst_9 main_v38 (broadcastInDim S16384x512 ![] bcast_S_S16384x512 : (⟨S_, .f32⟩ : BufTy).Contents (Elt F) → (⟨S16384x512, .f32⟩ : BufTy).Contents (Elt F)),
    binary main_v37 main_v38 main_v39 (mulf : (⟨S16384x512, .f32⟩ : BufTy).Contents (Elt F) → (⟨S16384x512, .f32⟩ : BufTy).Contents (Elt F) → (⟨S16384x512, .f32⟩ : BufTy).Contents (Elt F)) ]

/-- The stretch opsL2 of the line. -/
abbrev opsL2 : List (HloOp τ sig (Elt F)) :=
  [ unary main_arg1 main_v40 ((extractStridedSlice S1x512x512 ![2, 0, 0] · slices_S8x512x512_S1x512x512_2_0_0) : (⟨S8x512x512, .f32⟩ : BufTy).Contents (Elt F) → (⟨S1x512x512, .f32⟩ : BufTy).Contents (Elt F)),
    reshape main_v40 main_v41 rfl shapeCasts_S1x512x512_S512x512,
    nullary main_cst_10 (constant S_ .f32 0x39E7B46A#32),
    unary main_cst_10 main_v42 (broadcastInDim S512x512 ![] bcast_S_S512x512 : (⟨S_, .f32⟩ : BufTy).Contents (Elt F) → (⟨S512x512, .f32⟩ : BufTy).Contents (Elt F)),
    binary main_v41 main_v42 main_v43 (mulf : (⟨S512x512, .f32⟩ : BufTy).Contents (Elt F) → (⟨S512x512, .f32⟩ : BufTy).Contents (Elt F) → (⟨S512x512, .f32⟩ : BufTy).Contents (Elt F)),
    binary main_v39 main_v43 main_v44 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v45 ((extractStridedSlice S1x512 ![2, 0] · slices_S8x512_S1x512_2_0) : (⟨S8x512, .f32⟩ : BufTy).Contents (Elt F) → (⟨S1x512, .f32⟩ : BufTy).Contents (Elt F)),
    reshape main_v45 main_v46 rfl shapeCasts_S1x512_S512,
    nullary main_cst_11 (constant S_ .f32 0x3C23D70A#32),
    unary main_cst_11 main_v47 (broadcastInDim S512 ![] bcast_S_S512 : (⟨S_, .f32⟩ : BufTy).Contents (Elt F) → (⟨S512, .f32⟩ : BufTy).Contents (Elt F)),
    binary main_v46 main_v47 main_v48 (mulf : (⟨S512, .f32⟩ : BufTy).Contents (Elt F) → (⟨S512, .f32⟩ : BufTy).Contents (Elt F) → (⟨S512, .f32⟩ : BufTy).Contents (Elt F)),
    unary main_v48 main_v49 (broadcastInDim S1x512 ![1] bcast_S512_S1x512_1 : (⟨S512, .f32⟩ : BufTy).Contents (Elt F) → (⟨S1x512, .f32⟩ : BufTy).Contents (Elt F)),
    unary main_v49 main_v50 (broadcastInDim S16384x512 ![0, 1] bcast_S1x512_S16384x512_0_1 : (⟨S1x512, .f32⟩ : BufTy).Contents (Elt F) → (⟨S16384x512, .f32⟩ : BufTy).Contents (Elt F)),
    binary main_v44 main_v50 main_v51 (addf : (⟨S16384x512, .f32⟩ : BufTy).Contents (Elt F) → (⟨S16384x512, .f32⟩ : BufTy).Contents (Elt F) → (⟨S16384x512, .f32⟩ : BufTy).Contents (Elt F)),
    nullary main_cst_12 (constant S_ .f32 0x3E4CCCCD#32),
    TRef.nullary main_call2.cst (constant S_ .f32 0x00000000#32),
    TRef.unary main_call2.cst main_call2.v0 (broadcastInDim S16384x512 ![] bcast_S_S16384x512),
    TRef.binary (.of main_v51) main_call2.v0 main_call2.v1 (cmpf .oge),
    TRef.unary (.of main_cst_12) main_call2.v2 id,
    TRef.unary main_call2.v2 main_call2.v3 (broadcastInDim S16384x512 ![] bcast_S_S16384x512),
    TRef.binary main_call2.v3 (.of main_v51) main_call2.v4 mulf,
    TRef.ternary main_call2.v1 (.of main_v51) main_call2.v4 main_call2.call0.v0 select,
    nullary main_cst_13 (constant S_ .f32 0x3FB504F3#32),
    unary main_cst_13 main_v53 (broadcastInDim S16384x512 ![] bcast_S_S16384x512 : (⟨S_, .f32⟩ : BufTy).Contents (Elt F) → (⟨S16384x512, .f32⟩ : BufTy).Contents (Elt F)),
    binary main_v52 main_v53 main_v54 (mulf : (⟨S16384x512, .f32⟩ : BufTy).Contents (Elt F) → (⟨S16384x512, .f32⟩ : BufTy).Contents (Elt F) → (⟨S16384x512, .f32⟩ : BufTy).Contents (Elt F)) ]

/-- The stretch opsL3 of the line. -/
abbrev opsL3 : List (HloOp τ sig (Elt F)) :=
  [ unary main_arg1 main_v55 ((extractStridedSlice S1x512x512 ![3, 0, 0] · slices_S8x512x512_S1x512x512_3_0_0) : (⟨S8x512x512, .f32⟩ : BufTy).Contents (Elt F) → (⟨S1x512x512, .f32⟩ : BufTy).Contents (Elt F)),
    reshape main_v55 main_v56 rfl shapeCasts_S1x512x512_S512x512,
    nullary main_cst_14 (constant S_ .f32 0x39E7B46A#32),
    unary main_cst_14 main_v57 (broadcastInDim S512x512 ![] bcast_S_S512x512 : (⟨S_, .f32⟩ : BufTy).Contents (Elt F) → (⟨S512x512, .f32⟩ : BufTy).Contents (Elt F)),
    binary main_v56 main_v57 main_v58 (mulf : (⟨S512x512, .f32⟩ : BufTy).Contents (Elt F) → (⟨S512x512, .f32⟩ : BufTy).Contents (Elt F) → (⟨S512x512, .f32⟩ : BufTy).Contents (Elt F)),
    binary main_v54 main_v58 main_v59 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v60 ((extractStridedSlice S1x512 ![3, 0] · slices_S8x512_S1x512_3_0) : (⟨S8x512, .f32⟩ : BufTy).Contents (Elt F) → (⟨S1x512, .f32⟩ : BufTy).Contents (Elt F)),
    reshape main_v60 main_v61 rfl shapeCasts_S1x512_S512,
    nullary main_cst_15 (constant S_ .f32 0x3C23D70A#32),
    unary main_cst_15 main_v62 (broadcastInDim S512 ![] bcast_S_S512 : (⟨S_, .f32⟩ : BufTy).Contents (Elt F) → (⟨S512, .f32⟩ : BufTy).Contents (Elt F)),
    binary main_v61 main_v62 main_v63 (mulf : (⟨S512, .f32⟩ : BufTy).Contents (Elt F) → (⟨S512, .f32⟩ : BufTy).Contents (Elt F) → (⟨S512, .f32⟩ : BufTy).Contents (Elt F)),
    unary main_v63 main_v64 (broadcastInDim S1x512 ![1] bcast_S512_S1x512_1 : (⟨S512, .f32⟩ : BufTy).Contents (Elt F) → (⟨S1x512, .f32⟩ : BufTy).Contents (Elt F)),
    unary main_v64 main_v65 (broadcastInDim S16384x512 ![0, 1] bcast_S1x512_S16384x512_0_1 : (⟨S1x512, .f32⟩ : BufTy).Contents (Elt F) → (⟨S16384x512, .f32⟩ : BufTy).Contents (Elt F)),
    binary main_v59 main_v65 main_v66 (addf : (⟨S16384x512, .f32⟩ : BufTy).Contents (Elt F) → (⟨S16384x512, .f32⟩ : BufTy).Contents (Elt F) → (⟨S16384x512, .f32⟩ : BufTy).Contents (Elt F)),
    nullary main_cst_16 (constant S_ .f32 0x3E4CCCCD#32),
    TRef.nullary main_call3.cst (constant S_ .f32 0x00000000#32),
    TRef.unary main_call3.cst main_call3.v0 (broadcastInDim S16384x512 ![] bcast_S_S16384x512),
    TRef.binary (.of main_v66) main_call3.v0 main_call3.v1 (cmpf .oge),
    TRef.unary (.of main_cst_16) main_call3.v2 id,
    TRef.unary main_call3.v2 main_call3.v3 (broadcastInDim S16384x512 ![] bcast_S_S16384x512),
    TRef.binary main_call3.v3 (.of main_v66) main_call3.v4 mulf,
    TRef.ternary main_call3.v1 (.of main_v66) main_call3.v4 main_call3.call0.v0 select,
    nullary main_cst_17 (constant S_ .f32 0x3FB504F3#32),
    unary main_cst_17 main_v68 (broadcastInDim S16384x512 ![] bcast_S_S16384x512 : (⟨S_, .f32⟩ : BufTy).Contents (Elt F) → (⟨S16384x512, .f32⟩ : BufTy).Contents (Elt F)),
    binary main_v67 main_v68 main_v69 (mulf : (⟨S16384x512, .f32⟩ : BufTy).Contents (Elt F) → (⟨S16384x512, .f32⟩ : BufTy).Contents (Elt F) → (⟨S16384x512, .f32⟩ : BufTy).Contents (Elt F)) ]

/-- The stretch opsL4 of the line. -/
abbrev opsL4 : List (HloOp τ sig (Elt F)) :=
  [ unary main_arg1 main_v70 ((extractStridedSlice S1x512x512 ![4, 0, 0] · slices_S8x512x512_S1x512x512_4_0_0) : (⟨S8x512x512, .f32⟩ : BufTy).Contents (Elt F) → (⟨S1x512x512, .f32⟩ : BufTy).Contents (Elt F)),
    reshape main_v70 main_v71 rfl shapeCasts_S1x512x512_S512x512,
    nullary main_cst_18 (constant S_ .f32 0x39E7B46A#32),
    unary main_cst_18 main_v72 (broadcastInDim S512x512 ![] bcast_S_S512x512 : (⟨S_, .f32⟩ : BufTy).Contents (Elt F) → (⟨S512x512, .f32⟩ : BufTy).Contents (Elt F)),
    binary main_v71 main_v72 main_v73 (mulf : (⟨S512x512, .f32⟩ : BufTy).Contents (Elt F) → (⟨S512x512, .f32⟩ : BufTy).Contents (Elt F) → (⟨S512x512, .f32⟩ : BufTy).Contents (Elt F)),
    binary main_v69 main_v73 main_v74 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v75 ((extractStridedSlice S1x512 ![4, 0] · slices_S8x512_S1x512_4_0) : (⟨S8x512, .f32⟩ : BufTy).Contents (Elt F) → (⟨S1x512, .f32⟩ : BufTy).Contents (Elt F)),
    reshape main_v75 main_v76 rfl shapeCasts_S1x512_S512,
    nullary main_cst_19 (constant S_ .f32 0x3C23D70A#32),
    unary main_cst_19 main_v77 (broadcastInDim S512 ![] bcast_S_S512 : (⟨S_, .f32⟩ : BufTy).Contents (Elt F) → (⟨S512, .f32⟩ : BufTy).Contents (Elt F)),
    binary main_v76 main_v77 main_v78 (mulf : (⟨S512, .f32⟩ : BufTy).Contents (Elt F) → (⟨S512, .f32⟩ : BufTy).Contents (Elt F) → (⟨S512, .f32⟩ : BufTy).Contents (Elt F)),
    unary main_v78 main_v79 (broadcastInDim S1x512 ![1] bcast_S512_S1x512_1 : (⟨S512, .f32⟩ : BufTy).Contents (Elt F) → (⟨S1x512, .f32⟩ : BufTy).Contents (Elt F)),
    unary main_v79 main_v80 (broadcastInDim S16384x512 ![0, 1] bcast_S1x512_S16384x512_0_1 : (⟨S1x512, .f32⟩ : BufTy).Contents (Elt F) → (⟨S16384x512, .f32⟩ : BufTy).Contents (Elt F)),
    binary main_v74 main_v80 main_v81 (addf : (⟨S16384x512, .f32⟩ : BufTy).Contents (Elt F) → (⟨S16384x512, .f32⟩ : BufTy).Contents (Elt F) → (⟨S16384x512, .f32⟩ : BufTy).Contents (Elt F)),
    nullary main_cst_20 (constant S_ .f32 0x3E4CCCCD#32),
    TRef.nullary main_call4.cst (constant S_ .f32 0x00000000#32),
    TRef.unary main_call4.cst main_call4.v0 (broadcastInDim S16384x512 ![] bcast_S_S16384x512),
    TRef.binary (.of main_v81) main_call4.v0 main_call4.v1 (cmpf .oge),
    TRef.unary (.of main_cst_20) main_call4.v2 id,
    TRef.unary main_call4.v2 main_call4.v3 (broadcastInDim S16384x512 ![] bcast_S_S16384x512),
    TRef.binary main_call4.v3 (.of main_v81) main_call4.v4 mulf,
    TRef.ternary main_call4.v1 (.of main_v81) main_call4.v4 main_call4.call0.v0 select,
    nullary main_cst_21 (constant S_ .f32 0x3FB504F3#32),
    unary main_cst_21 main_v83 (broadcastInDim S16384x512 ![] bcast_S_S16384x512 : (⟨S_, .f32⟩ : BufTy).Contents (Elt F) → (⟨S16384x512, .f32⟩ : BufTy).Contents (Elt F)),
    binary main_v82 main_v83 main_v84 (mulf : (⟨S16384x512, .f32⟩ : BufTy).Contents (Elt F) → (⟨S16384x512, .f32⟩ : BufTy).Contents (Elt F) → (⟨S16384x512, .f32⟩ : BufTy).Contents (Elt F)) ]

/-- The stretch opsL5 of the line. -/
abbrev opsL5 : List (HloOp τ sig (Elt F)) :=
  [ unary main_arg1 main_v85 ((extractStridedSlice S1x512x512 ![5, 0, 0] · slices_S8x512x512_S1x512x512_5_0_0) : (⟨S8x512x512, .f32⟩ : BufTy).Contents (Elt F) → (⟨S1x512x512, .f32⟩ : BufTy).Contents (Elt F)),
    reshape main_v85 main_v86 rfl shapeCasts_S1x512x512_S512x512,
    nullary main_cst_22 (constant S_ .f32 0x39E7B46A#32),
    unary main_cst_22 main_v87 (broadcastInDim S512x512 ![] bcast_S_S512x512 : (⟨S_, .f32⟩ : BufTy).Contents (Elt F) → (⟨S512x512, .f32⟩ : BufTy).Contents (Elt F)),
    binary main_v86 main_v87 main_v88 (mulf : (⟨S512x512, .f32⟩ : BufTy).Contents (Elt F) → (⟨S512x512, .f32⟩ : BufTy).Contents (Elt F) → (⟨S512x512, .f32⟩ : BufTy).Contents (Elt F)),
    binary main_v84 main_v88 main_v89 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v90 ((extractStridedSlice S1x512 ![5, 0] · slices_S8x512_S1x512_5_0) : (⟨S8x512, .f32⟩ : BufTy).Contents (Elt F) → (⟨S1x512, .f32⟩ : BufTy).Contents (Elt F)),
    reshape main_v90 main_v91 rfl shapeCasts_S1x512_S512,
    nullary main_cst_23 (constant S_ .f32 0x3C23D70A#32),
    unary main_cst_23 main_v92 (broadcastInDim S512 ![] bcast_S_S512 : (⟨S_, .f32⟩ : BufTy).Contents (Elt F) → (⟨S512, .f32⟩ : BufTy).Contents (Elt F)),
    binary main_v91 main_v92 main_v93 (mulf : (⟨S512, .f32⟩ : BufTy).Contents (Elt F) → (⟨S512, .f32⟩ : BufTy).Contents (Elt F) → (⟨S512, .f32⟩ : BufTy).Contents (Elt F)),
    unary main_v93 main_v94 (broadcastInDim S1x512 ![1] bcast_S512_S1x512_1 : (⟨S512, .f32⟩ : BufTy).Contents (Elt F) → (⟨S1x512, .f32⟩ : BufTy).Contents (Elt F)),
    unary main_v94 main_v95 (broadcastInDim S16384x512 ![0, 1] bcast_S1x512_S16384x512_0_1 : (⟨S1x512, .f32⟩ : BufTy).Contents (Elt F) → (⟨S16384x512, .f32⟩ : BufTy).Contents (Elt F)),
    binary main_v89 main_v95 main_v96 (addf : (⟨S16384x512, .f32⟩ : BufTy).Contents (Elt F) → (⟨S16384x512, .f32⟩ : BufTy).Contents (Elt F) → (⟨S16384x512, .f32⟩ : BufTy).Contents (Elt F)),
    nullary main_cst_24 (constant S_ .f32 0x3E4CCCCD#32),
    TRef.nullary main_call5.cst (constant S_ .f32 0x00000000#32),
    TRef.unary main_call5.cst main_call5.v0 (broadcastInDim S16384x512 ![] bcast_S_S16384x512),
    TRef.binary (.of main_v96) main_call5.v0 main_call5.v1 (cmpf .oge),
    TRef.unary (.of main_cst_24) main_call5.v2 id,
    TRef.unary main_call5.v2 main_call5.v3 (broadcastInDim S16384x512 ![] bcast_S_S16384x512),
    TRef.binary main_call5.v3 (.of main_v96) main_call5.v4 mulf,
    TRef.ternary main_call5.v1 (.of main_v96) main_call5.v4 main_call5.call0.v0 select,
    nullary main_cst_25 (constant S_ .f32 0x3FB504F3#32),
    unary main_cst_25 main_v98 (broadcastInDim S16384x512 ![] bcast_S_S16384x512 : (⟨S_, .f32⟩ : BufTy).Contents (Elt F) → (⟨S16384x512, .f32⟩ : BufTy).Contents (Elt F)),
    binary main_v97 main_v98 main_v99 (mulf : (⟨S16384x512, .f32⟩ : BufTy).Contents (Elt F) → (⟨S16384x512, .f32⟩ : BufTy).Contents (Elt F) → (⟨S16384x512, .f32⟩ : BufTy).Contents (Elt F)) ]

/-- The stretch opsL6 of the line. -/
abbrev opsL6 : List (HloOp τ sig (Elt F)) :=
  [ unary main_arg1 main_v100 ((extractStridedSlice S1x512x512 ![6, 0, 0] · slices_S8x512x512_S1x512x512_6_0_0) : (⟨S8x512x512, .f32⟩ : BufTy).Contents (Elt F) → (⟨S1x512x512, .f32⟩ : BufTy).Contents (Elt F)),
    reshape main_v100 main_v101 rfl shapeCasts_S1x512x512_S512x512,
    nullary main_cst_26 (constant S_ .f32 0x39E7B46A#32),
    unary main_cst_26 main_v102 (broadcastInDim S512x512 ![] bcast_S_S512x512 : (⟨S_, .f32⟩ : BufTy).Contents (Elt F) → (⟨S512x512, .f32⟩ : BufTy).Contents (Elt F)),
    binary main_v101 main_v102 main_v103 (mulf : (⟨S512x512, .f32⟩ : BufTy).Contents (Elt F) → (⟨S512x512, .f32⟩ : BufTy).Contents (Elt F) → (⟨S512x512, .f32⟩ : BufTy).Contents (Elt F)),
    binary main_v99 main_v103 main_v104 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v105 ((extractStridedSlice S1x512 ![6, 0] · slices_S8x512_S1x512_6_0) : (⟨S8x512, .f32⟩ : BufTy).Contents (Elt F) → (⟨S1x512, .f32⟩ : BufTy).Contents (Elt F)),
    reshape main_v105 main_v106 rfl shapeCasts_S1x512_S512,
    nullary main_cst_27 (constant S_ .f32 0x3C23D70A#32),
    unary main_cst_27 main_v107 (broadcastInDim S512 ![] bcast_S_S512 : (⟨S_, .f32⟩ : BufTy).Contents (Elt F) → (⟨S512, .f32⟩ : BufTy).Contents (Elt F)),
    binary main_v106 main_v107 main_v108 (mulf : (⟨S512, .f32⟩ : BufTy).Contents (Elt F) → (⟨S512, .f32⟩ : BufTy).Contents (Elt F) → (⟨S512, .f32⟩ : BufTy).Contents (Elt F)),
    unary main_v108 main_v109 (broadcastInDim S1x512 ![1] bcast_S512_S1x512_1 : (⟨S512, .f32⟩ : BufTy).Contents (Elt F) → (⟨S1x512, .f32⟩ : BufTy).Contents (Elt F)),
    unary main_v109 main_v110 (broadcastInDim S16384x512 ![0, 1] bcast_S1x512_S16384x512_0_1 : (⟨S1x512, .f32⟩ : BufTy).Contents (Elt F) → (⟨S16384x512, .f32⟩ : BufTy).Contents (Elt F)),
    binary main_v104 main_v110 main_v111 (addf : (⟨S16384x512, .f32⟩ : BufTy).Contents (Elt F) → (⟨S16384x512, .f32⟩ : BufTy).Contents (Elt F) → (⟨S16384x512, .f32⟩ : BufTy).Contents (Elt F)),
    nullary main_cst_28 (constant S_ .f32 0x3E4CCCCD#32),
    TRef.nullary main_call6.cst (constant S_ .f32 0x00000000#32),
    TRef.unary main_call6.cst main_call6.v0 (broadcastInDim S16384x512 ![] bcast_S_S16384x512),
    TRef.binary (.of main_v111) main_call6.v0 main_call6.v1 (cmpf .oge),
    TRef.unary (.of main_cst_28) main_call6.v2 id,
    TRef.unary main_call6.v2 main_call6.v3 (broadcastInDim S16384x512 ![] bcast_S_S16384x512),
    TRef.binary main_call6.v3 (.of main_v111) main_call6.v4 mulf,
    TRef.ternary main_call6.v1 (.of main_v111) main_call6.v4 main_call6.call0.v0 select,
    nullary main_cst_29 (constant S_ .f32 0x3FB504F3#32),
    unary main_cst_29 main_v113 (broadcastInDim S16384x512 ![] bcast_S_S16384x512 : (⟨S_, .f32⟩ : BufTy).Contents (Elt F) → (⟨S16384x512, .f32⟩ : BufTy).Contents (Elt F)),
    binary main_v112 main_v113 main_v114 (mulf : (⟨S16384x512, .f32⟩ : BufTy).Contents (Elt F) → (⟨S16384x512, .f32⟩ : BufTy).Contents (Elt F) → (⟨S16384x512, .f32⟩ : BufTy).Contents (Elt F)) ]

/-- The stretch opsL7 of the line. -/
abbrev opsL7 : List (HloOp τ sig (Elt F)) :=
  [ unary main_arg1 main_v115 ((extractStridedSlice S1x512x512 ![7, 0, 0] · slices_S8x512x512_S1x512x512_7_0_0) : (⟨S8x512x512, .f32⟩ : BufTy).Contents (Elt F) → (⟨S1x512x512, .f32⟩ : BufTy).Contents (Elt F)),
    reshape main_v115 main_v116 rfl shapeCasts_S1x512x512_S512x512,
    nullary main_cst_30 (constant S_ .f32 0x39E7B46A#32),
    unary main_cst_30 main_v117 (broadcastInDim S512x512 ![] bcast_S_S512x512 : (⟨S_, .f32⟩ : BufTy).Contents (Elt F) → (⟨S512x512, .f32⟩ : BufTy).Contents (Elt F)),
    binary main_v116 main_v117 main_v118 (mulf : (⟨S512x512, .f32⟩ : BufTy).Contents (Elt F) → (⟨S512x512, .f32⟩ : BufTy).Contents (Elt F) → (⟨S512x512, .f32⟩ : BufTy).Contents (Elt F)),
    binary main_v114 main_v118 main_v119 ((fun l r => Host.dotGeneral dot_S16384x512_S512x512_S16384x512_1_1_0_0_n_n none l r) : (⟨S16384x512, .f32⟩ : BufTy).Contents (Elt F) → (⟨S512x512, .f32⟩ : BufTy).Contents (Elt F) → (⟨S16384x512, .f32⟩ : BufTy).Contents (Elt F)),
    unary main_arg2 main_v120 ((extractStridedSlice S1x512 ![7, 0] · slices_S8x512_S1x512_7_0) : (⟨S8x512, .f32⟩ : BufTy).Contents (Elt F) → (⟨S1x512, .f32⟩ : BufTy).Contents (Elt F)),
    reshape main_v120 main_v121 rfl shapeCasts_S1x512_S512,
    nullary main_cst_31 (constant S_ .f32 0x3C23D70A#32),
    unary main_cst_31 main_v122 (broadcastInDim S512 ![] bcast_S_S512 : (⟨S_, .f32⟩ : BufTy).Contents (Elt F) → (⟨S512, .f32⟩ : BufTy).Contents (Elt F)),
    binary main_v121 main_v122 main_v123 (mulf : (⟨S512, .f32⟩ : BufTy).Contents (Elt F) → (⟨S512, .f32⟩ : BufTy).Contents (Elt F) → (⟨S512, .f32⟩ : BufTy).Contents (Elt F)),
    unary main_v123 main_v124 (broadcastInDim S1x512 ![1] bcast_S512_S1x512_1 : (⟨S512, .f32⟩ : BufTy).Contents (Elt F) → (⟨S1x512, .f32⟩ : BufTy).Contents (Elt F)),
    unary main_v124 main_v125 (broadcastInDim S16384x512 ![0, 1] bcast_S1x512_S16384x512_0_1 : (⟨S1x512, .f32⟩ : BufTy).Contents (Elt F) → (⟨S16384x512, .f32⟩ : BufTy).Contents (Elt F)),
    binary main_v119 main_v125 main_v126 (addf : (⟨S16384x512, .f32⟩ : BufTy).Contents (Elt F) → (⟨S16384x512, .f32⟩ : BufTy).Contents (Elt F) → (⟨S16384x512, .f32⟩ : BufTy).Contents (Elt F)),
    nullary main_cst_32 (constant S_ .f32 0x3E4CCCCD#32),
    TRef.nullary main_call7.cst (constant S_ .f32 0x00000000#32),
    TRef.unary main_call7.cst main_call7.v0 (broadcastInDim S16384x512 ![] bcast_S_S16384x512),
    TRef.binary (.of main_v126) main_call7.v0 main_call7.v1 (cmpf .oge),
    TRef.unary (.of main_cst_32) main_call7.v2 id,
    TRef.unary main_call7.v2 main_call7.v3 (broadcastInDim S16384x512 ![] bcast_S_S16384x512),
    TRef.binary main_call7.v3 (.of main_v126) main_call7.v4 mulf,
    TRef.ternary main_call7.v1 (.of main_v126) main_call7.v4 main_call7.call0.v0 select,
    nullary main_cst_33 (constant S_ .f32 0x3FB504F3#32),
    unary main_cst_33 main_v128 (broadcastInDim S16384x512 ![] bcast_S_S16384x512 : (⟨S_, .f32⟩ : BufTy).Contents (Elt F) → (⟨S16384x512, .f32⟩ : BufTy).Contents (Elt F)),
    binary main_v127 main_v128 main_v129 (mulf : (⟨S16384x512, .f32⟩ : BufTy).Contents (Elt F) → (⟨S16384x512, .f32⟩ : BufTy).Contents (Elt F) → (⟨S16384x512, .f32⟩ : BufTy).Contents (Elt F)) ]

/-- The stretch opsTail of the line. -/
abbrev opsTail : List (HloOp τ sig (Elt F)) :=
  [ unary main_v129 main_v130 (broadcastInDim S16384x1x512 ![0, 2] bcast_S16384x512_S16384x1x512_0_2 : (⟨S16384x512, .f32⟩ : BufTy).Contents (Elt F) → (⟨S16384x1x512, .f32⟩ : BufTy).Contents (Elt F)),
    unary main_v130 main_v131 (broadcastInDim S16384x16x512 ![0, 1, 2] bcast_S16384x1x512_S16384x16x512_0_1_2 : (⟨S16384x1x512, .f32⟩ : BufTy).Contents (Elt F) → (⟨S16384x16x512, .f32⟩ : BufTy).Contents (Elt F)) ]

/-- The whole line, stretch after stretch. -/
abbrev ops : List (HloOp τ sig (Elt F)) :=
  opsPre ++ (opsL0 ++ (opsL1 ++ (opsL2 ++ (opsL3 ++ (opsL4 ++ (opsL5 ++ (opsL6 ++ (opsL7 ++ (opsTail)))))))))

/-- The windows, one after the other, are the same line. -/
theorem wins_eq : (win0 ++ (win1 ++ win2) : List (HloOp τ sig (Elt F))) = ops := rfl

set_option maxRecDepth 16384 in
set_option maxHeartbeats 4000000 in
/-- Window 0 of @main runs its operations in order: the calls unfold to their bodies. -/
theorem main_part0_eq (c : Dev nD) : main_part0 (F := F) c = seq win0 := rfl

set_option maxRecDepth 16384 in
set_option maxHeartbeats 4000000 in
/-- Window 1 of @main runs its operations in order: the calls unfold to their bodies. -/
theorem main_part1_eq (c : Dev nD) : main_part1 (F := F) c = seq win1 := rfl

set_option maxRecDepth 16384 in
set_option maxHeartbeats 4000000 in
/-- Window 2 of @main runs its operations in order: the calls unfold to their bodies. -/
theorem main_part2_eq (c : Dev nD) : main_part2 (F := F) c = seq win2 := rfl

/-- @main is the line run from its first operation to its last. -/
theorem main_eq (c : Dev nD) : main (F := F) c = seq ops := by
  rw [← wins_eq]
  simp only [seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsPre_sub : (opsPre : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub ..⟩

theorem opsL0_sub : (opsL0 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL1_sub : (opsL1 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL2_sub : (opsL2 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL3_sub : (opsL3 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL4_sub : (opsL4 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL5_sub : (opsL5 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL6_sub : (opsL6 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsL7_sub : (opsL7 : List (HloOp τ sig (Elt F))).Forall fun op => op.bufs ⊆ tcRefs τ sig :=
  ⟨unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub ..⟩

theorem opsTail_sub : (opsTail : List (HloOp τ sig (Elt F))).Forall fun op => op.bufs ⊆ tcRefs τ sig :=
  ⟨unary_bufs_sub .., unary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp opsPre_sub op h, List.forall_iff_forall_mem.mp opsL0_sub op h, List.forall_iff_forall_mem.mp opsL1_sub op h, List.forall_iff_forall_mem.mp opsL2_sub op h, List.forall_iff_forall_mem.mp opsL3_sub op h, List.forall_iff_forall_mem.mp opsL4_sub op h, List.forall_iff_forall_mem.mp opsL5_sub op h, List.forall_iff_forall_mem.mp opsL6_sub op h, List.forall_iff_forall_mem.mp opsL7_sub op h, List.forall_iff_forall_mem.mp opsTail_sub op h]

end Cert.ReferenceIdeal.Hand

end
-- ==== Proof.RefTerm.lean ====
/-
  The reference's result as ONE term of its three argument arrays, built from the operations it prints.

  `refNorm` is the scaling of the rows as the reference spells it (squares, sum along the row, kept as a column, over the
  divisor, plus ε, reciprocal root, repeated along the row, times the array). `refLayer` is one dense layer as it spells
  it: slice l of the weights recast as a matrix and scaled, the product of the activations with it over both last axes,
  slice l of the biases scaled and repeated down the rows, the sum, the leaky unit (the comparison with the zero splat
  choosing between the value and slope · value), the gain. `refOut` is the eight layers after the scaling, copied along
  a new middle axis of sixteen.
-/
import proofs.«178076_j79817672229324_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The rows scaled to unit mean square, as the reference's operations compute them. -/
def refNorm (z : FVec F S16384x512 .f32) : FVec F S16384x512 .f32 :=
  mulf z (broadcastInDim S16384x512 ![0, 1] bcast_S16384x1_S16384x512_0_1
    (Host.rsqrt (addf
      (Host.divf
        (broadcastInDim S16384x1 ![0] bcast_S16384_S16384x1_0
          (Host.reduceAdd (mulf z z) (constant S_ .f32 0x00000000#32) reducesTo_S16384x512_S16384_d1 h_S_))
        (broadcastInDim S16384x1 ![] bcast_S_S16384x1 (constant S_ .f32 0x44000000#32)))
      (broadcastInDim S16384x1 ![] bcast_S_S16384x1 (constant S_ .f32 0x322BCC77#32)))))

/-- A layer's values before the leaky unit: activations times the scaled weight slice over both last axes, plus the
    scaled bias slice repeated down the rows. -/
def refDense (st : Fin 3 → Nat) (hs : S8x512x512.Slices st S1x512x512) (st2 : Fin 2 → Nat) (hs2 : S8x512.Slices st2 S1x512)
    (x : FVec F S16384x512 .f32) (W : FVec F S8x512x512 .f32) (B : FVec F S8x512 .f32) : FVec F S16384x512 .f32 :=
  addf
    (Host.dotGeneral dot_S16384x512_S512x512_S16384x512_1_1_0_0_n_n none x
      (mulf (shapeCast S512x512 (extractStridedSlice S1x512x512 st W hs) shapeCasts_S1x512x512_S512x512)
        (broadcastInDim S512x512 ![] bcast_S_S512x512 (constant S_ .f32 0x39E7B46A#32))))
    (broadcastInDim S16384x512 ![0, 1] bcast_S1x512_S16384x512_0_1
      (broadcastInDim S1x512 ![1] bcast_S512_S1x512_1
        (mulf (shapeCast S512 (extractStridedSlice S1x512 st2 B hs2) shapeCasts_S1x512_S512)
          (broadcastInDim S512 ![] bcast_S_S512 (constant S_ .f32 0x3C23D70A#32)))))

/-- The leaky unit and the gain on a whole array, as the reference's operations compute them. -/
def refAct (y : FVec F S16384x512 .f32) : FVec F S16384x512 .f32 :=
  mulf
    (select (cmpf .oge y (broadcastInDim S16384x512 ![] bcast_S_S16384x512 (constant S_ .f32 0x00000000#32))) y
      (mulf (broadcastInDim S16384x512 ![] bcast_S_S16384x512 (id (constant S_ .f32 0x3E4CCCCD#32))) y))
    (broadcastInDim S16384x512 ![] bcast_S_S16384x512 (constant S_ .f32 0x3FB504F3#32))

/-- One layer. -/
def refLayer (st : Fin 3 → Nat) (hs : S8x512x512.Slices st S1x512x512) (st2 : Fin 2 → Nat) (hs2 : S8x512.Slices st2 S1x512)
    (x : FVec F S16384x512 .f32) (W : FVec F S8x512x512 .f32) (B : FVec F S8x512 .f32) : FVec F S16384x512 .f32 :=
  refAct (refDense st hs st2 hs2 x W B)

/-- The activations after the eight layers. -/
def refHidden (z : FVec F S16384x512 .f32) (W : FVec F S8x512x512 .f32) (B : FVec F S8x512 .f32) : FVec F S16384x512 .f32 :=
  refLayer ![7, 0, 0] slices_S8x512x512_S1x512x512_7_0_0 ![7, 0] slices_S8x512_S1x512_7_0
    (refLayer ![6, 0, 0] slices_S8x512x512_S1x512x512_6_0_0 ![6, 0] slices_S8x512_S1x512_6_0
    (refLayer ![5, 0, 0] slices_S8x512x512_S1x512x512_5_0_0 ![5, 0] slices_S8x512_S1x512_5_0
    (refLayer ![4, 0, 0] slices_S8x512x512_S1x512x512_4_0_0 ![4, 0] slices_S8x512_S1x512_4_0
    (refLayer ![3, 0, 0] slices_S8x512x512_S1x512x512_3_0_0 ![3, 0] slices_S8x512_S1x512_3_0
    (refLayer ![2, 0, 0] slices_S8x512x512_S1x512x512_2_0_0 ![2, 0] slices_S8x512_S1x512_2_0
    (refLayer ![1, 0, 0] slices_S8x512x512_S1x512x512_1_0_0 ![1, 0] slices_S8x512_S1x512_1_0
    (refLayer ![0, 0, 0] slices_S8x512x512_S1x512x512_0_0_0 ![0, 0] slices_S8x512_S1x512_0_0
      (refNorm z) W B) W B) W B) W B) W B) W B) W B) W B

/-- The result: the activations copied along a new middle axis of sixteen. -/
def refOut (z : FVec F S16384x512 .f32) (W : FVec F S8x512x512 .f32) (B : FVec F S8x512 .f32) : FVec F S16384x16x512 .f32 :=
  broadcastInDim S16384x16x512 ![0, 1, 2] bcast_S16384x1x512_S16384x16x512_0_1_2
    (broadcastInDim S16384x1x512 ![0, 2] bcast_S16384x512_S16384x1x512_0_2 (refHidden z W B))

end Cert.ReferenceIdeal.Hand

end
-- ==== Proof.RefRun.lean ====
/-
  The reference's run: every weakly fair execution of its @main ends with the result buffer at `refOut` of the three
  argument arrays and the arguments unchanged.

  The line of operations is cut into the scaling, the eight layers and the two copies, and read one stretch at a time:
  a stretch's result depends on the buffers before it only through its input buffer and the arguments, and no stretch
  writes an argument. Each of the eight layers is the same lemma at its own buffers and slice.
-/
import proofs.«178076_j79817672229324_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running one stretch after another is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The stretches, one at a time -/

theorem afterPre_out (V : Valuation τ sig (Elt F)) :
    after opsPre V (main_v9 : DevRef τ sig) = refNorm (V (main_arg0 : DevRef τ sig)) := by
  after_results_simp
  rfl

theorem afterPre_args (V : Valuation τ sig (Elt F)) :
    after opsPre V (main_arg0 : DevRef τ sig) = V (main_arg0 : DevRef τ sig)
      ∧ after opsPre V (main_arg1 : DevRef τ sig) = V (main_arg1 : DevRef τ sig)
      ∧ after opsPre V (main_arg2 : DevRef τ sig) = V (main_arg2 : DevRef τ sig) := by
  refine ⟨?_, ?_, ?_⟩ <;> after_results_simp

set_option maxRecDepth 8192 in
set_option maxHeartbeats 2000000 in
/-- After layer 0's operations its result buffer holds the layer of what its input buffer and the two parameter arrays
    held before them. -/
theorem afterL0_out (V : Valuation τ sig (Elt F)) :
    after opsL0 V (main_v24 : DevRef τ sig)
      = refLayer ![0, 0, 0] slices_S8x512x512_S1x512x512_0_0_0 ![0, 0] slices_S8x512_S1x512_0_0
          (V (main_v9 : DevRef τ sig)) (V (main_arg1 : DevRef τ sig)) (V (main_arg2 : DevRef τ sig)) := by
  after_results_simp
  rfl

set_option maxRecDepth 8192 in
set_option maxHeartbeats 2000000 in
theorem afterL0_args (V : Valuation τ sig (Elt F)) :
    after opsL0 V (main_arg0 : DevRef τ sig) = V (main_arg0 : DevRef τ sig)
      ∧ after opsL0 V (main_arg1 : DevRef τ sig) = V (main_arg1 : DevRef τ sig)
      ∧ after opsL0 V (main_arg2 : DevRef τ sig) = V (main_arg2 : DevRef τ sig) := by
  refine ⟨?_, ?_, ?_⟩ <;> after_results_simp

set_option maxRecDepth 8192 in
set_option maxHeartbeats 2000000 in
/-- After layer 1's operations its result buffer holds the layer of what its input buffer and the two parameter arrays
    held before them. -/
theorem afterL1_out (V : Valuation τ sig (Elt F)) :
    after opsL1 V (main_v39 : DevRef τ sig)
      = refLayer ![1, 0, 0] slices_S8x512x512_S1x512x512_1_0_0 ![1, 0] slices_S8x512_S1x512_1_0
          (V (main_v24 : DevRef τ sig)) (V (main_arg1 : DevRef τ sig)) (V (main_arg2 : DevRef τ sig)) := by
  after_results_simp
  rfl

set_option maxRecDepth 8192 in
set_option maxHeartbeats 2000000 in
theorem afterL1_args (V : Valuation τ sig (Elt F)) :
    after opsL1 V (main_arg0 : DevRef τ sig) = V (main_arg0 : DevRef τ sig)
      ∧ after opsL1 V (main_arg1 : DevRef τ sig) = V (main_arg1 : DevRef τ sig)
      ∧ after opsL1 V (main_arg2 : DevRef τ sig) = V (main_arg2 : DevRef τ sig) := by
  refine ⟨?_, ?_, ?_⟩ <;> after_results_simp

set_option maxRecDepth 8192 in
set_option maxHeartbeats 2000000 in
/-- After layer 2's operations its result buffer holds the layer of what its input buffer and the two parameter arrays
    held before them. -/
theorem afterL2_out (V : Valuation τ sig (Elt F)) :
    after opsL2 V (main_v54 : DevRef τ sig)
      = refLayer ![2, 0, 0] slices_S8x512x512_S1x512x512_2_0_0 ![2, 0] slices_S8x512_S1x512_2_0
          (V (main_v39 : DevRef τ sig)) (V (main_arg1 : DevRef τ sig)) (V (main_arg2 : DevRef τ sig)) := by
  after_results_simp
  rfl

set_option maxRecDepth 8192 in
set_option maxHeartbeats 2000000 in
theorem afterL2_args (V : Valuation τ sig (Elt F)) :
    after opsL2 V (main_arg0 : DevRef τ sig) = V (main_arg0 : DevRef τ sig)
      ∧ after opsL2 V (main_arg1 : DevRef τ sig) = V (main_arg1 : DevRef τ sig)
      ∧ after opsL2 V (main_arg2 : DevRef τ sig) = V (main_arg2 : DevRef τ sig) := by
  refine ⟨?_, ?_, ?_⟩ <;> after_results_simp

set_option maxRecDepth 8192 in
set_option maxHeartbeats 2000000 in
/-- After layer 3's operations its result buffer holds the layer of what its input buffer and the two parameter arrays
    held before them. -/
theorem afterL3_out (V : Valuation τ sig (Elt F)) :
    after opsL3 V (main_v69 : DevRef τ sig)
      = refLayer ![3, 0, 0] slices_S8x512x512_S1x512x512_3_0_0 ![3, 0] slices_S8x512_S1x512_3_0
          (V (main_v54 : DevRef τ sig)) (V (main_arg1 : DevRef τ sig)) (V (main_arg2 : DevRef τ sig)) := by
  after_results_simp
  rfl

set_option maxRecDepth 8192 in
set_option maxHeartbeats 2000000 in
theorem afterL3_args (V : Valuation τ sig (Elt F)) :
    after opsL3 V (main_arg0 : DevRef τ sig) = V (main_arg0 : DevRef τ sig)
      ∧ after opsL3 V (main_arg1 : DevRef τ sig) = V (main_arg1 : DevRef τ sig)
      ∧ after opsL3 V (main_arg2 : DevRef τ sig) = V (main_arg2 : DevRef τ sig) := by
  refine ⟨?_, ?_, ?_⟩ <;> after_results_simp

set_option maxRecDepth 8192 in
set_option maxHeartbeats 2000000 in
/-- After layer 4's operations its result buffer holds the layer of what its input buffer and the two parameter arrays
    held before them. -/
theorem afterL4_out (V : Valuation τ sig (Elt F)) :
    after opsL4 V (main_v84 : DevRef τ sig)
      = refLayer ![4, 0, 0] slices_S8x512x512_S1x512x512_4_0_0 ![4, 0] slices_S8x512_S1x512_4_0
          (V (main_v69 : DevRef τ sig)) (V (main_arg1 : DevRef τ sig)) (V (main_arg2 : DevRef τ sig)) := by
  after_results_simp
  rfl

set_option maxRecDepth 8192 in
set_option maxHeartbeats 2000000 in
theorem afterL4_args (V : Valuation τ sig (Elt F)) :
    after opsL4 V (main_arg0 : DevRef τ sig) = V (main_arg0 : DevRef τ sig)
      ∧ after opsL4 V (main_arg1 : DevRef τ sig) = V (main_arg1 : DevRef τ sig)
      ∧ after opsL4 V (main_arg2 : DevRef τ sig) = V (main_arg2 : DevRef τ sig) := by
  refine ⟨?_, ?_, ?_⟩ <;> after_results_simp

set_option maxRecDepth 8192 in
set_option maxHeartbeats 2000000 in
/-- After layer 5's operations its result buffer holds the layer of what its input buffer and the two parameter arrays
    held before them. -/
theorem afterL5_out (V : Valuation τ sig (Elt F)) :
    after opsL5 V (main_v99 : DevRef τ sig)
      = refLayer ![5, 0, 0] slices_S8x512x512_S1x512x512_5_0_0 ![5, 0] slices_S8x512_S1x512_5_0
          (V (main_v84 : DevRef τ sig)) (V (main_arg1 : DevRef τ sig)) (V (main_arg2 : DevRef τ sig)) := by
  after_results_simp
  rfl

set_option maxRecDepth 8192 in
set_option maxHeartbeats 2000000 in
theorem afterL5_args (V : Valuation τ sig (Elt F)) :
    after opsL5 V (main_arg0 : DevRef τ sig) = V (main_arg0 : DevRef τ sig)
      ∧ after opsL5 V (main_arg1 : DevRef τ sig) = V (main_arg1 : DevRef τ sig)
      ∧ after opsL5 V (main_arg2 : DevRef τ sig) = V (main_arg2 : DevRef τ sig) := by
  refine ⟨?_, ?_, ?_⟩ <;> after_results_simp

set_option maxRecDepth 8192 in
set_option maxHeartbeats 2000000 in
/-- After layer 6's operations its result buffer holds the layer of what its input buffer and the two parameter arrays
    held before them. -/
theorem afterL6_out (V : Valuation τ sig (Elt F)) :
    after opsL6 V (main_v114 : DevRef τ sig)
      = refLayer ![6, 0, 0] slices_S8x512x512_S1x512x512_6_0_0 ![6, 0] slices_S8x512_S1x512_6_0
          (V (main_v99 : DevRef τ sig)) (V (main_arg1 : DevRef τ sig)) (V (main_arg2 : DevRef τ sig)) := by
  after_results_simp
  rfl

set_option maxRecDepth 8192 in
set_option maxHeartbeats 2000000 in
theorem afterL6_args (V : Valuation τ sig (Elt F)) :
    after opsL6 V (main_arg0 : DevRef τ sig) = V (main_arg0 : DevRef τ sig)
      ∧ after opsL6 V (main_arg1 : DevRef τ sig) = V (main_arg1 : DevRef τ sig)
      ∧ after opsL6 V (main_arg2 : DevRef τ sig) = V (main_arg2 : DevRef τ sig) := by
  refine ⟨?_, ?_, ?_⟩ <;> after_results_simp

set_option maxRecDepth 8192 in
set_option maxHeartbeats 2000000 in
/-- After layer 7's operations its result buffer holds the layer of what its input buffer and the two parameter arrays
    held before them. -/
theorem afterL7_out (V : Valuation τ sig (Elt F)) :
    after opsL7 V (main_v129 : DevRef τ sig)
      = refLayer ![7, 0, 0] slices_S8x512x512_S1x512x512_7_0_0 ![7, 0] slices_S8x512_S1x512_7_0
          (V (main_v114 : DevRef τ sig)) (V (main_arg1 : DevRef τ sig)) (V (main_arg2 : DevRef τ sig)) := by
  after_results_simp
  rfl

set_option maxRecDepth 8192 in
set_option maxHeartbeats 2000000 in
theorem afterL7_args (V : Valuation τ sig (Elt F)) :
    after opsL7 V (main_arg0 : DevRef τ sig) = V (main_arg0 : DevRef τ sig)
      ∧ after opsL7 V (main_arg1 : DevRef τ sig) = V (main_arg1 : DevRef τ sig)
      ∧ after opsL7 V (main_arg2 : DevRef τ sig) = V (main_arg2 : DevRef τ sig) := by
  refine ⟨?_, ?_, ?_⟩ <;> after_results_simp

theorem afterTail_out (V : Valuation τ sig (Elt F)) :
    after opsTail V (main_v131 : DevRef τ sig)
      = broadcastInDim S16384x16x512 ![0, 1, 2] bcast_S16384x1x512_S16384x16x512_0_1_2
          (broadcastInDim S16384x1x512 ![0, 2] bcast_S16384x512_S16384x1x512_0_2 (V (main_v129 : DevRef τ sig))) := by
  after_results_simp

theorem afterTail_args (V : Valuation τ sig (Elt F)) :
    after opsTail V (main_arg0 : DevRef τ sig) = V (main_arg0 : DevRef τ sig)
      ∧ after opsTail V (main_arg1 : DevRef τ sig) = V (main_arg1 : DevRef τ sig)
      ∧ after opsTail V (main_arg2 : DevRef τ sig) = V (main_arg2 : DevRef τ sig) := by
  refine ⟨?_, ?_, ?_⟩ <;> after_results_simp

/-! ## The whole line -/

/-- What the line leaves in the result buffer and in the arguments, from any contents `V`. -/
theorem after_ops (V : Valuation τ sig (Elt F)) :
    after ops V (main_v131 : DevRef τ sig)
        = refOut (V (main_arg0 : DevRef τ sig)) (V (main_arg1 : DevRef τ sig)) (V (main_arg2 : DevRef τ sig))
      ∧ after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig) := by
  simp only [ops, after_append]
  generalize hV0 : after opsPre V = V0
  generalize hV1 : after opsL0 V0 = V1
  generalize hV2 : after opsL1 V1 = V2
  generalize hV3 : after opsL2 V2 = V3
  generalize hV4 : after opsL3 V3 = V4
  generalize hV5 : after opsL4 V4 = V5
  generalize hV6 : after opsL5 V5 = V6
  generalize hV7 : after opsL6 V6 = V7
  generalize hV8 : after opsL7 V7 = V8
  have a0 := afterPre_args V; rw [hV0] at a0
  have a1 := afterL0_args V0; rw [hV1] at a1
  have a2 := afterL1_args V1; rw [hV2] at a2
  have a3 := afterL2_args V2; rw [hV3] at a3
  have a4 := afterL3_args V3; rw [hV4] at a4
  have a5 := afterL4_args V4; rw [hV5] at a5
  have a6 := afterL5_args V5; rw [hV6] at a6
  have a7 := afterL6_args V6; rw [hV7] at a7
  have a8 := afterL7_args V7; rw [hV8] at a8
  have a9 := afterTail_args V8
  have o0 := afterPre_out V; rw [hV0] at o0
  have o1 := afterL0_out V0; rw [hV1] at o1
  have o2 := afterL1_out V1; rw [hV2] at o2
  have o3 := afterL2_out V2; rw [hV3] at o3
  have o4 := afterL3_out V3; rw [hV4] at o4
  have o5 := afterL4_out V4; rw [hV5] at o5
  have o6 := afterL5_out V5; rw [hV6] at o6
  have o7 := afterL6_out V6; rw [hV7] at o7
  have o8 := afterL7_out V7; rw [hV8] at o8
  have e1 : V8 (main_arg1 : DevRef τ sig) = V (main_arg1 : DevRef τ sig) :=
    a8.2.1.trans (a7.2.1.trans (a6.2.1.trans (a5.2.1.trans (a4.2.1.trans (a3.2.1.trans (a2.2.1.trans (a1.2.1.trans a0.2.1)))))))
  have e2 : V8 (main_arg2 : DevRef τ sig) = V (main_arg2 : DevRef τ sig) :=
    a8.2.2.trans (a7.2.2.trans (a6.2.2.trans (a5.2.2.trans (a4.2.2.trans (a3.2.2.trans (a2.2.2.trans (a1.2.2.trans a0.2.2)))))))
  have e0 : V8 (main_arg0 : DevRef τ sig) = V (main_arg0 : DevRef τ sig) :=
    a8.1.trans (a7.1.trans (a6.1.trans (a5.1.trans (a4.1.trans (a3.1.trans (a2.1.trans (a1.1.trans a0.1)))))))
  refine ⟨?_, a9.1.trans e0, a9.2.1.trans e1, a9.2.2.trans e2⟩
  rw [afterTail_out, o8, o7, o6, o5, o4, o3, o2, o1, o0]
  rw [a7.2.1, a7.2.2, a6.2.1, a6.2.2, a5.2.1, a5.2.2, a4.2.1, a4.2.2, a3.2.1, a3.2.2, a2.2.1, a2.2.2, a1.2.1, a1.2.2, a0.2.1, a0.2.2]
  rfl

/-- Every weakly fair execution of the reference's @main, from any memory with zero counters, terminates with the
    result buffer at `refOut` of the argument arrays as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v131)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v131).trans (after_ops (launchContents m c)).1,
        (h c main_arg0).trans (after_ops (launchContents m c)).2.1,
        (h c main_arg1).trans (after_ops (launchContents m c)).2.2.1,
        (h c main_arg2).trans (after_ops (launchContents m c)).2.2.2⟩)
    (run_seq scopedRefs_eq scopedSems_eq defs main (fun _ => ops) main_eq (fun _ => ops_sub) m ρ)

end Cert.ReferenceIdeal.Hand

end
-- ==== Proof.LibHostDotT.lean ====
/-
  A general lemma for references that multiply by a matrix stored output-major, read at the exact (extended-real)
  instance.

  * `dotT_apply`: the host's general product of an [M, K] left operand with an [N, K] right operand, both contracted on
    their LAST axis (the contraction `bi,oi->bo`), is at (p, j) the plain sum over k of left (p, k) times right (j, k),
    whatever the precision and the element formats.
-/
import Idealize.ShloMosaic.Lib.ValueIdx
import Idealize.ShloMosaic.PureOps.Ideal.Laws
import proofs.«178076_j79817672229324_1_alg».proof.Proof.LibDenseRows

noncomputable section

open scoped BigOperators

namespace Cert.HostDotT

open Idealize.ShloMosaic Idealize.ShloMosaic.ValueIdx

/-- A product of an [M, K] array with an [N, K] array over their last axes, at (p, j): the sum over k of
    left (p, k) times right (j, k). -/
theorem dotT_apply {M K N : ℕ} {φ₁ φ₂ : FTy} (prec : Option ContractPrecision) (h : FVec Ideal ⟨2, ![M, K]⟩ φ₁)
    (w : FVec Ideal ⟨2, ![N, K]⟩ φ₂) (p : Fin M) (j : Fin N) :
    Host.dotGeneral (DotDims.transposedRhs M K N) prec h w (ix2 p j) = ∑ k : Fin K, h (ix2 p k) * w (ix2 j k) := by
  refine (Ideal.dotGeneral_apply (DotDims.transposedRhs M K N) prec .single h w (ix2 p j)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact Cert.DenseRows.lhsT_0 _ _
      | ⟨1, _⟩ => exact (Cert.DenseRows.lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact Cert.DenseRows.rhsT_0 _ _
      | ⟨1, _⟩ => exact (Cert.DenseRows.rhsT_1 _ _).trans hk)
  rw [el, er]

end Cert.HostDotT

end
-- ==== Proof.RefRead.lean ====
/-
  The reference's result, read index by index, is the mapping network of each batch row.

  Row p of an array x : [16384, 512] is the function k ↦ x (p, k). Read at (p, k), the reference's scaling of the rows
  is entry (p, k) times the reciprocal root of (the sum over e of the squares of row p, over the divisor, plus ε): the
  sum along the row starts from the zero word, which is the extended real 0, and the column it is kept as and the
  repeats along the row read back the entry of row p. Read at (p, j), a dense layer is the sum over k of
  activation (p, k) times weight (l, j, k) times the weight scale — the product contracts both last axes, and slice l
  of the weights recast as a matrix reads the stored weight (l, j, k) — plus bias (l, j) times the bias scale, then
  the leaky unit with its gain (the slope may stand on either side of its product). So a layer sends row p to the
  spec's dense layer of row p, the eight layers after the scaling send row p of the batch to the spec's network of
  it, and the two copies along the new middle axis read, at (p, o, j), entry j of that row whatever o is.
-/
import proofs.«178076_j79817672229324_1_alg».proof.Proof.RefTerm
import proofs.«178076_j79817672229324_1_alg».proof.Proof.Spec
import proofs.«178076_j79817672229324_1_alg».proof.Proof.LibDenseRows
import proofs.«178076_j79817672229324_1_alg».proof.Proof.LibHostDotT
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-- Row p of a batch, as a function of the feature. -/
def rrow (x : S16384x512.Idx → EReal) (p : Fin 16384) : Fin 512 → EReal := fun k => x (ix2 p k)

/-- The sum of the squares along row p. -/
theorem sumsq_apply (z : FVec Ideal S16384x512 .f32) (p : Fin 16384) :
    Host.reduceAdd (F := Ideal) (mulf z z) (constant S_ .f32 0x00000000#32) reducesTo_S16384x512_S16384_d1 h_S_ (ix1 p)
      = ∑ e : Fin 512, z (ix2 p e) * z (ix2 p e) := by
  have h : S16384x512.Reduces [1] S16384 := by decide
  refine (Ideal.hostReduceAdd_single reducesTo_S16384x512_S16384_d1 h (mulf z z) _ (ix1 p)).trans ?_
  refine (congrArg (· + _) Ideal.ofBits_zero_f32).trans ?_
  refine (zero_add _).trans ?_
  refine Finset.sum_congr rfl fun e _ => ?_
  refine congrArg (fun i => z i * z i) (funext fun c => Fin.ext ?_)
  rw [h.lift_val]
  match c with
  | ⟨0, _⟩ => rfl
  | ⟨1, _⟩ => rfl

/-- The scaling of the rows, read at (p, k): entry (p, k) times the reciprocal root of row p's mean square plus ε. -/
theorem refNorm_apply (z : FVec Ideal S16384x512 .f32) (p : Fin 16384) (k : Fin 512) :
    refNorm (F := Ideal) z (ix2 p k) = Cert.Mapping.normRow (rrow z p) k := by
  unfold refNorm Cert.Mapping.normRow rrow
  refine congrArg (z (ix2 p k) * ·) ?_
  refine (broadcastInDim_apply _ bcast_S16384x1_S16384x512_0_1 _ (ix2 p k) (ix2 p (0 : Fin 1)) fun a => ?_).trans ?_
  · match a with
    | ⟨0, _⟩ => rfl
    | ⟨1, _⟩ => rfl
  refine congrArg Ideal.rsqrt ?_
  refine congrArg₂ (· + ·) (congrArg₂ Ideal.div ?_ ?_) ?_
  · refine (broadcastInDim_apply _ bcast_S16384_S16384x1_0 _ (ix2 p (0 : Fin 1)) (ix1 p) fun a => ?_).trans (sumsq_apply z p)
    match a with
    | ⟨0, _⟩ => rfl
  · exact broadcastInDim_scalar_apply bcast_S_S16384x1 _ _
  · exact broadcastInDim_scalar_apply bcast_S_S16384x1 _ _

/-! ## One dense layer -/

/-- The reference's product of the activations with a weight matrix, at (p, j). -/
theorem refDot_apply (x : FVec Ideal S16384x512 .f32) (w : FVec Ideal S512x512 .f32) (p : Fin 16384) (j : Fin 512) :
    Host.dotGeneral dot_S16384x512_S512x512_S16384x512_1_1_0_0_n_n none x w (ix2 p j)
      = ∑ k : Fin 512, x (ix2 p k) * w (ix2 j k) :=
  Cert.HostDotT.dotT_apply (M := 16384) (K := 512) (N := 512) none x w p j

/-- Slice l of the weights recast as a matrix and scaled, at (j, k): the stored weight (l, j, k) times the scale. -/
theorem refW_apply (l : Fin 8) (st : Fin 3 → Nat) (hs : S8x512x512.Slices st S1x512x512)
    (h0 : st 0 = l.val) (h1 : st 1 = 0) (h2 : st 2 = 0) (W : FVec Ideal S8x512x512 .f32) (j k : Fin 512) :
    mulf (shapeCast S512x512 (extractStridedSlice S1x512x512 st W hs) shapeCasts_S1x512x512_S512x512)
        (broadcastInDim S512x512 ![] bcast_S_S512x512 (constant (F := Ideal) S_ .f32 0x39E7B46A#32)) (ix2 j k)
      = Cert.Mapping.scaledW W l j k := by
  unfold Cert.Mapping.scaledW
  refine congrArg₂ (· * ·) ?_ (broadcastInDim_scalar_apply bcast_S_S512x512 _ _)
  refine (shapeCast_1ab_ab_apply _ shapeCasts_S1x512x512_S512x512 j k).trans ?_
  refine extractStridedSlice_apply st W hs (ix3 (0 : Fin 1) j k) (ix3 l j k) fun a => ?_
  match a with
  | ⟨0, _⟩ => exact (Nat.add_zero _).symm.trans (congrArg (· + 0) h0.symm)
  | ⟨1, _⟩ => exact (Nat.zero_add _).symm.trans (congrArg (· + j.val) h1.symm)
  | ⟨2, _⟩ => exact (Nat.zero_add _).symm.trans (congrArg (· + k.val) h2.symm)

/-- Slice l of the biases recast as a vector and scaled, at j: the stored bias (l, j) times the scale. -/
theorem refB_apply (l : Fin 8) (st2 : Fin 2 → Nat) (hs2 : S8x512.Slices st2 S1x512)
    (g0 : st2 0 = l.val) (g1 : st2 1 = 0) (B : FVec Ideal S8x512 .f32) (j : Fin 512) :
    mulf (shapeCast S512 (extractStridedSlice S1x512 st2 B hs2) shapeCasts_S1x512_S512)
        (broadcastInDim S512 ![] bcast_S_S512 (constant (F := Ideal) S_ .f32 0x3C23D70A#32)) (ix1 j)
      = Cert.Mapping.scaledB B l j := by
  unfold Cert.Mapping.scaledB
  refine congrArg₂ (· * ·) ?_ (broadcastInDim_scalar_apply bcast_S_S512 _ _)
  refine (shapeCast_1a_a_apply _ shapeCasts_S1x512_S512 j).trans ?_
  refine extractStridedSlice_apply st2 B hs2 (ix2 (0 : Fin 1) j) (ix2 l j) fun a => ?_
  match a with
  | ⟨0, _⟩ => exact (Nat.add_zero _).symm.trans (congrArg (· + 0) g0.symm)
  | ⟨1, _⟩ => exact (Nat.zero_add _).symm.trans (congrArg (· + j.val) g1.symm)

/-- A layer's values before the leaky unit, at (p, j): the sum over k of activation (p, k) times scaled weight
    (l, j, k), plus the scaled bias (l, j). -/
theorem refDense_apply (l : Fin 8) (st : Fin 3 → Nat) (hs : S8x512x512.Slices st S1x512x512) (st2 : Fin 2 → Nat)
    (hs2 : S8x512.Slices st2 S1x512) (h0 : st 0 = l.val) (h1 : st 1 = 0) (h2 : st 2 = 0) (g0 : st2 0 = l.val) (g1 : st2 1 = 0)
    (x : FVec Ideal S16384x512 .f32) (W : FVec Ideal S8x512x512 .f32) (B : FVec Ideal S8x512 .f32) (p : Fin 16384) (j : Fin 512) :
    refDense (F := Ideal) st hs st2 hs2 x W B (ix2 p j)
      = (∑ k : Fin 512, rrow x p k * Cert.Mapping.scaledW W l j k) + Cert.Mapping.scaledB B l j := by
  unfold refDense rrow
  refine congrArg₂ (· + ·) ?_ ?_
  · refine (refDot_apply x _ p j).trans (Finset.sum_congr rfl fun k _ => congrArg (x (ix2 p k) * ·) ?_)
    exact refW_apply l st hs h0 h1 h2 W j k
  · refine (broadcastInDim_apply _ bcast_S1x512_S16384x512_0_1 _ (ix2 p j) (ix2 (0 : Fin 1) j) fun a => ?_).trans ?_
    · match a with
      | ⟨0, _⟩ => rfl
      | ⟨1, _⟩ => rfl
    refine (broadcastInDim_apply _ bcast_S512_S1x512_1 _ (ix2 (0 : Fin 1) j) (ix1 j) fun a => ?_).trans ?_
    · match a with
      | ⟨0, _⟩ => rfl
    exact refB_apply l st2 hs2 g0 g1 B j

/-- The leaky unit and the gain, at an index. -/
theorem refAct_apply (y : FVec Ideal S16384x512 .f32) (i : S16384x512.Idx) :
    refAct (F := Ideal) y i = Cert.Mapping.act (y i) := by
  unfold refAct
  refine Eq.trans ?_ (Cert.Mapping.act_comm (y i))
  refine congrArg₂ (· * ·) ?_ (broadcastInDim_scalar_apply bcast_S_S16384x512 _ i)
  refine congrArg₂ (fun c v => Scalar.select c (y i) v) ?_ ?_
  · exact congrArg (Ideal.cmp .oge (y i)) (broadcastInDim_scalar_apply bcast_S_S16384x512 _ i)
  · exact congrArg (· * y i) (broadcastInDim_scalar_apply bcast_S_S16384x512 _ i)

/-- One layer on row p: the row's dense layer of the spec with the scaled weights and biases of layer l. -/
theorem rrow_refLayer (l : Fin 8) (st : Fin 3 → Nat) (hs : S8x512x512.Slices st S1x512x512) (st2 : Fin 2 → Nat)
    (hs2 : S8x512.Slices st2 S1x512) (h0 : st 0 = l.val) (h1 : st 1 = 0) (h2 : st 2 = 0) (g0 : st2 0 = l.val) (g1 : st2 1 = 0)
    (x : FVec Ideal S16384x512 .f32) (W : FVec Ideal S8x512x512 .f32) (B : FVec Ideal S8x512 .f32) (p : Fin 16384) :
    rrow (refLayer (F := Ideal) st hs st2 hs2 x W B) p
      = Cert.Mapping.layerRow (Cert.Mapping.scaledW W l) (Cert.Mapping.scaledB B l) (rrow x p) :=
  funext fun j => (refAct_apply _ (ix2 p j)).trans
    (congrArg Cert.Mapping.act (refDense_apply l st hs st2 hs2 h0 h1 h2 g0 g1 x W B p j))

/-! ## The eight layers, and the copies along the new axis -/

/-- The activations after the eight layers, on row p: the spec's network of row p of the batch. -/
theorem rrow_refHidden (z : FVec Ideal S16384x512 .f32) (W : FVec Ideal S8x512x512 .f32) (B : FVec Ideal S8x512 .f32)
    (p : Fin 16384) :
    rrow (refHidden (F := Ideal) z W B) p
      = Cert.Mapping.network (Cert.Mapping.scaledW W) (Cert.Mapping.scaledB B) (rrow z p) := by
  unfold refHidden Cert.Mapping.network
  refine (rrow_refLayer 7 _ _ _ _ rfl rfl rfl rfl rfl _ W B p).trans (congrArg _ ?_)
  refine (rrow_refLayer 6 _ _ _ _ rfl rfl rfl rfl rfl _ W B p).trans (congrArg _ ?_)
  refine (rrow_refLayer 5 _ _ _ _ rfl rfl rfl rfl rfl _ W B p).trans (congrArg _ ?_)
  refine (rrow_refLayer 4 _ _ _ _ rfl rfl rfl rfl rfl _ W B p).trans (congrArg _ ?_)
  refine (rrow_refLayer 3 _ _ _ _ rfl rfl rfl rfl rfl _ W B p).trans (congrArg _ ?_)
  refine (rrow_refLayer 2 _ _ _ _ rfl rfl rfl rfl rfl _ W B p).trans (congrArg _ ?_)
  refine (rrow_refLayer 1 _ _ _ _ rfl rfl rfl rfl rfl _ W B p).trans (congrArg _ ?_)
  refine (rrow_refLayer 0 _ _ _ _ rfl rfl rfl rfl rfl _ W B p).trans (congrArg _ ?_)
  exact funext (refNorm_apply z p)

/-- The result at (p, o, j): the activations after the eight layers at (p, j), whatever the copy o. -/
theorem refOut_apply (z : FVec Ideal S16384x512 .f32) (W : FVec Ideal S8x512x512 .f32) (B : FVec Ideal S8x512 .f32)
    (p : Fin 16384) (o : Fin 16) (j : Fin 512) :
    refOut (F := Ideal) z W B (ix3 p o j) = refHidden (F := Ideal) z W B (ix2 p j) := by
  unfold refOut
  refine (broadcastInDim_apply _ bcast_S16384x1x512_S16384x16x512_0_1_2 _ (ix3 p o j) (ix3 p (0 : Fin 1) j) fun a => ?_).trans ?_
  · match a with
    | ⟨0, _⟩ => rfl
    | ⟨1, _⟩ => rfl
    | ⟨2, _⟩ => rfl
  refine broadcastInDim_apply _ bcast_S16384x512_S16384x1x512_0_2 _ (ix3 p (0 : Fin 1) j) (ix2 p j) fun a => ?_
  match a with
  | ⟨0, _⟩ => rfl
  | ⟨1, _⟩ => rfl

/-- The reference's result is the spec's: at every index the network of that index's batch row. -/
theorem refOut_eq (z : FVec Ideal S16384x512 .f32) (W : FVec Ideal S8x512x512 .f32) (B : FVec Ideal S8x512 .f32) :
    refOut (F := Ideal) z W B = Cert.Mapping.out z W B := by
  funext i
  obtain ⟨p, o, j, rfl⟩ : ∃ (p : Fin 16384) (o : Fin 16) (j : Fin 512), i = ix3 p o j := ⟨i 0, i 1, i 2, eq_ix3 i⟩
  refine (refOut_apply z W B p o j).trans ?_
  refine Eq.trans ?_ (Cert.Mapping.out_ix3 z W B p o j).symm
  exact congrFun (rrow_refHidden z W B p) j

end Cert.ReferenceIdeal.Hand

end
-- ==== Proof.lean ====
/-
  The proof of `Cert.Claim`: the kernel and its idealization run and leave their arguments as they were, the reference
  does the same, the idealization rewrote nothing, and over the extended reals the idealized kernel and the idealized
  reference end with the same result array.

  Both programs compute a mapping network. Every batch row is scaled to unit mean square and sent through eight dense
  layers, each a product with a scaled weight matrix plus a scaled bias, a leaky unit and a gain; the last activations
  are copied sixteen times along a new middle axis. The kernel does it tile by tile of 512 rows, with the weights
  transposed and scaled before the launch and products contracted against the transposed matrices; the reference does it
  on the whole batch, contracting both last axes. A row's result depends on that row alone, and entry (p, o, j) of either
  result is the same finite sum of products at every layer: `Cert.Mapping.out`. The only law used between the two
  spellings is that a product of two extended reals does not depend on the order of its factors (the slope of the leaky
  unit stands on the right in the kernel and on the left in the reference); no finiteness of the inputs is needed.
-/
import proofs.«178076_j79817672229324_1_alg».proof.Defs
import proofs.«178076_j79817672229324_1_alg».proof.Proof.Gen.Kernel
import proofs.«178076_j79817672229324_1_alg».proof.Proof.Gen.Kernel.Skeleton
import proofs.«178076_j79817672229324_1_alg».proof.Proof.Gen.Kernel.Launch
import proofs.«178076_j79817672229324_1_alg».proof.Proof.Gen.Kernel.Points
import proofs.«178076_j79817672229324_1_alg».proof.Proof.Gen.Kernel.Frame
import proofs.«178076_j79817672229324_1_alg».proof.Proof.Gen.KernelIdeal
import proofs.«178076_j79817672229324_1_alg».proof.Proof.Gen.KernelIdeal.Skeleton
import proofs.«178076_j79817672229324_1_alg».proof.Proof.Gen.KernelIdeal.Launch
import proofs.«178076_j79817672229324_1_alg».proof.Proof.Gen.KernelIdeal.Points
import proofs.«178076_j79817672229324_1_alg».proof.Proof.Gen.KernelIdeal.Frame
import proofs.«178076_j79817672229324_1_alg».proof.Proof.Gen.KernelIdeal.Value
import proofs.«178076_j79817672229324_1_alg».proof.Proof.Gen.ReferenceIdeal
import proofs.«178076_j79817672229324_1_alg».proof.Proof.Gen.Pre_finite_inputs
import proofs.«178076_j79817672229324_1_alg».proof.Proof.KValue
import proofs.«178076_j79817672229324_1_alg».proof.Proof.RefRun
import proofs.«178076_j79817672229324_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- Over the extended reals both programs, run from memories that agree on the arguments, end with the result array at
    `Cert.Mapping.out` of the arguments. -/
theorem algebraic : Cert.algebraic_KernelIdeal_ReferenceIdeal := by
  intro m ρ m' ρ' _ hagree
  refine ⟨fun c => Cert.KernelIdeal.Rows.G m c, Cert.KernelIdeal.Rows.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Hand.refOut_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
